-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x16 : Shape := ⟨2, ![128, 16]⟩
abbrev S16 : Shape := ⟨1, ![16]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg11 : FVec F S128x16 .f32) (main_arg12 : FVec F S16 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x16 .f32 := Host.absf main_arg11
  let main_cst_20 : FVec F S_ .f32 := constant S_ .f32 0x7F800000#32
  let main_v55 : FVec F S128x16 .f32 := broadcastInDim S128x16 ![] bcast_S_S128x16 main_cst_20
  let main_v56 : IVec S128x16 1 := cmpf .olt main_v54 main_v55
  let main_c_21 : IVec S_ 1 := constantI S_ 1 1#1
  let main_v57 : IVec S_ 1 := (fun x v => Host.reduce IntOp.andi x v reducesTo_S128x16_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S128x1 .f32) (main_arg10 : FVec F S1 .f32) (main_arg11 : FVec F S128x16 .f32) (main_arg12 : FVec F S16 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : FVec F S128x16 .f32) (main_arg12 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : FVec F S128x16 .f32) (main_arg12 : FVec F S16 .f32) (main_arg13 : IVec S1600000 32) (main_arg14 : IVec S1600000 32) (main_arg15 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x16 : Shape := ⟨2, ![128, 16]⟩
abbrev S16 : Shape := ⟨1, ![16]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S1x1 : Shape := ⟨2, ![1, 1]⟩
abbrev S2000x1 : Shape := ⟨2, ![2000, 1]⟩
abbrev S512x128 : Shape := ⟨2, ![512, 128]⟩
abbrev S512x1 : Shape := ⟨2, ![512, 1]⟩
abbrev S1x16 : Shape := ⟨2, ![1, 16]⟩
abbrev S512x16 : Shape := ⟨2, ![512, 16]⟩

abbrev nBuf : Space → Nat
  | .hbm => 150
  | .vmem => 36
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S128x16, .f32⟩
  | 12 => ⟨S16, .f32⟩
  | 13 => ⟨S1600000, .i32⟩
  | 14 => ⟨S1600000, .i32⟩
  | 15 => ⟨S100000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S_, .f32⟩
  | 24 => ⟨S100000, .f32⟩
  | 25 => ⟨S100000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S_, .f32⟩
  | 32 => ⟨S100000, .f32⟩
  | 33 => ⟨S100000, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x128, .f32⟩
  | 48 => ⟨S_, .f32⟩
  | 49 => ⟨S100000x128, .f32⟩
  | 50 => ⟨S1600000x1, .i32⟩
  | 51 => ⟨S100000x128, .f32⟩
  | 52 => ⟨S100000x1, .f32⟩
  | 53 => ⟨S100000x128, .f32⟩
  | 54 => ⟨S100000x128, .f32⟩
  | 55 => ⟨S1x128, .f32⟩
  | 56 => ⟨S100000x128, .f32⟩
  | 57 => ⟨S100000x1, .f32⟩
  | 58 => ⟨S100000x128, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S100000x1, .f32⟩
  | 74 => ⟨S100000x128, .f32⟩
  | 75 => ⟨S100000x128, .f32⟩
  | 76 => ⟨S1x128, .f32⟩
  | 77 => ⟨S100000x128, .f32⟩
  | 78 => ⟨S100000x1, .f32⟩
  | 79 => ⟨S100000x128, .f32⟩
  | 80 => ⟨S100000x128, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S100000x1, .f32⟩
  | 95 => ⟨S100000x128, .f32⟩
  | 96 => ⟨S100000x128, .f32⟩
  | 97 => ⟨S1x128, .f32⟩
  | 98 => ⟨S100000x128, .f32⟩
  | 99 => ⟨S100000x1, .f32⟩
  | 100 => ⟨S100000x128, .f32⟩
  | 101 => ⟨S100000x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000x1, .f32⟩
  | 116 => ⟨S100000x128, .f32⟩
  | 117 => ⟨S100000x128, .f32⟩
  | 118 => ⟨S1x128, .f32⟩
  | 119 => ⟨S100000x128, .f32⟩
  | 120 => ⟨S1x1, .f32⟩
  | 121 => ⟨S100000x1, .f32⟩
  | 122 => ⟨S100000x128, .f32⟩
  | 123 => ⟨S_, .f32⟩
  | 124 => ⟨S512x128, .f32⟩
  | 125 => ⟨S100000x1, .i32⟩
  | 126 => ⟨S512x128, .f32⟩
  | 127 => ⟨S_, .f32⟩
  | _ => ⟨S100000x128, .f32⟩

abbrev hbmTy0_1 (i : Nat) : BufTy := match i % 128 with
  | 0 => ⟨S512x1, .f32⟩
  | 1 => ⟨S100000x1, .i32⟩
  | 2 => ⟨S512x1, .f32⟩
  | 3 => ⟨S_, .f32⟩
  | 4 => ⟨S512x1, .f32⟩
  | 5 => ⟨S512x1, .i1⟩
  | 6 => ⟨S_, .f32⟩
  | 7 => ⟨S512x1, .f32⟩
  | 8 => ⟨S512x1, .i1⟩
  | 9 => ⟨S_, .f32⟩
  | 10 => ⟨S_, .f32⟩
  | 11 => ⟨S512x1, .f32⟩
  | 12 => ⟨S512x1, .f32⟩
  | 13 => ⟨S512x128, .f32⟩
  | 14 => ⟨S512x128, .f32⟩
  | 15 => ⟨S_, .f32⟩
  | 16 => ⟨S_, .f32⟩
  | 17 => ⟨S512x128, .i1⟩
  | 18 => ⟨S512x128, .f32⟩
  | 19 => ⟨S512x128, .f32⟩
  | 20 => ⟨S1x16, .f32⟩
  | 21 => ⟨S512x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x1, .f32⟩
  | .local _ .vmem, ⟨27, _⟩ => ⟨S1x1, .f32⟩
  | .local _ .vmem, ⟨28, _⟩ => ⟨S2000x1, .f32⟩
  | .local _ .vmem, ⟨29, _⟩ => ⟨S2000x1, .f32⟩
  | .local _ .vmem, ⟨30, _⟩ => ⟨S2000x128, .f32⟩
  | .local _ .vmem, ⟨31, _⟩ => ⟨S2000x128, .f32⟩
  | .local _ .vmem, ⟨32, _⟩ => ⟨S512x128, .f32⟩
  | .local _ .vmem, ⟨33, _⟩ => ⟨S128x16, .f32⟩
  | .local _ .vmem, ⟨34, _⟩ => ⟨S1x16, .f32⟩
  | .local _ .vmem, ⟨35, _⟩ => ⟨S512x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_8 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_9 : Ref sig .tc := ⟨.hbm, 81, rfl⟩
abbrev main_v50 : Ref sig .tc := ⟨.hbm, 82, rfl⟩
abbrev main_v51 : Ref sig .tc := ⟨.hbm, 83, rfl⟩
abbrev main_c_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_12 : Ref sig .tc := ⟨.hbm, 102, rfl⟩
abbrev main_v68 : Ref sig .tc := ⟨.hbm, 103, rfl⟩
abbrev main_v69 : Ref sig .tc := ⟨.hbm, 104, rfl⟩
abbrev main_c_13 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84_0 : Ref sig .tc := ⟨.hbm, 121, rfl⟩
abbrev main_v84_1 : Ref sig .tc := ⟨.hbm, 122, rfl⟩
abbrev main_cst_15 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_16 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_17 : Ref sig .tc := ⟨.hbm, 131, rfl⟩
abbrev main_v91 : Ref sig .tc := ⟨.hbm, 132, rfl⟩
abbrev main_v92 : Ref sig .tc := ⟨.hbm, 133, rfl⟩
abbrev main_cst_18 : Ref sig .tc := ⟨.hbm, 134, rfl⟩
abbrev main_v93 : Ref sig .tc := ⟨.hbm, 135, rfl⟩
abbrev main_v94 : Ref sig .tc := ⟨.hbm, 136, rfl⟩
abbrev main_cst_19 : Ref sig .tc := ⟨.hbm, 137, rfl⟩
abbrev main_call2_v0 : Ref sig .tc := ⟨.hbm, 138, rfl⟩
abbrev main_call2_v1 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_20 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc4_stg4_0 : Ref sig .tc := ⟨.vmem, 30, rfl⟩
abbrev cc4_stg4_1 : Ref sig .tc := ⟨.vmem, 31, rfl⟩
abbrev cc5_stg0_0 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc4_sem4_0 : DmaSem sig := 30
abbrev cc4_sem4_1 : DmaSem sig := 31
abbrev cc5_sem0_0 : DmaSem sig := 32
abbrev cc5_sem1_0 : DmaSem sig := 33
abbrev cc5_sem2_0 : DmaSem sig := 34
abbrev cc5_sem3_0 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  bcast_S_S512x128 : S_.BroadcastsInDim S512x128 (![] : Fin 0 → Fin S512x128.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  shapeCasts_S16_S1x16 : S16.ShapeCasts S1x16
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S512x16_S512x16_0_0 : ∀ a, (![0, 0] : Fin 2 → Nat) a + S512x16.size a ≤ S512x16.size a
  h_S512x16 : 0 < S512x16.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  scatter_S512x128_S100000x1_S100000x128_1_0_0_1_wf : ScatterDims.WF S512x128 S100000x1 S100000x128 [1] [0] [0] 1
  scatter_S512x1_S100000x1_S100000x1_1_0_0_1_wf : ScatterDims.WF S512x1 S100000x1 S100000x1 [1] [0] [0] 1
  dot_S512x128_S128x16_S512x16_1_0_0_1_n_n_wf : DotDims.WF S512x128 S128x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S100000x1.size a
  hwx4_3 : ∀ i : grid4.Coords, EltTy.bits .f32 = 32 ∨ (Rect.block (s := S100000x1) S2000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S100000x128.size a
  hwx4_4 : ∀ i : grid4.Coords, EltTy.bits .f32 = 32 ∨ (Rect.block (s := S100000x128) S2000x128.size (cc4_transform_4 i) (hinb4_4 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S512x128.size a
  hwx5_0 : ∀ i : grid5.Coords, EltTy.bits .f32 = 32 ∨ (Rect.block (s := S512x128) S512x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x16.size a ≤ S128x16.size a
  hwx5_1 : ∀ i : grid5.Coords, EltTy.bits .f32 = 32 ∨ (Rect.block (s := S128x16) S128x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512x16.size a ≤ S512x16.size a
  hwx5_3 : ∀ i : grid5.Coords, EltTy.bits .f32 = 32 ∨ (Rect.block (s := S512x16) S512x16.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v80) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v82) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84_0) S2000x1.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v84_1) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v98) S512x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S128x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S512x16.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x16 : Shape := ⟨2, ![128, 16]⟩
abbrev S16 : Shape := ⟨1, ![16]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S1x1 : Shape := ⟨2, ![1, 1]⟩
abbrev S512x128 : Shape := ⟨2, ![512, 128]⟩
abbrev S512x1 : Shape := ⟨2, ![512, 1]⟩
abbrev S512x16 : Shape := ⟨2, ![512, 16]⟩
abbrev S1x16 : Shape := ⟨2, ![1, 16]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S128x16, .f32⟩
  | 12 => ⟨S16, .f32⟩
  | 13 => ⟨S1600000, .i32⟩
  | 14 => ⟨S1600000, .i32⟩
  | 15 => ⟨S100000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S_, .f32⟩
  | 24 => ⟨S100000, .f32⟩
  | 25 => ⟨S100000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S_, .f32⟩
  | 32 => ⟨S100000, .f32⟩
  | 33 => ⟨S100000, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x128, .f32⟩
  | 48 => ⟨S_, .f32⟩
  | 49 => ⟨S100000x128, .f32⟩
  | 50 => ⟨S1600000x1, .i32⟩
  | 51 => ⟨S100000x128, .f32⟩
  | 52 => ⟨S100000x1, .f32⟩
  | 53 => ⟨S100000x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x1, .f32⟩
  | 63 => ⟨S100000x128, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000x1, .f32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S100000x1, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x1, .f32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x1, .f32⟩
  | 115 => ⟨S100000x128, .f32⟩
  | 116 => ⟨S100000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S_, .f32⟩
  | 127 => ⟨S100000x128, .f32⟩
  | _ => ⟨S100000x128, .f32⟩

abbrev hbmTy0_1 (i : Nat) : BufTy := match i % 128 with
  | 0 => ⟨S1600000x1, .i32⟩
  | 1 => ⟨S100000x128, .f32⟩
  | 2 => ⟨S100000x1, .f32⟩
  | 3 => ⟨S100000x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x1, .f32⟩
  | 13 => ⟨S1x1, .f32⟩
  | 14 => ⟨S100000x1, .f32⟩
  | 15 => ⟨S100000x1, .f32⟩
  | 16 => ⟨S100000x1, .f32⟩
  | 17 => ⟨S100000x1, .f32⟩
  | 18 => ⟨S_, .f32⟩
  | 19 => ⟨S100000x1, .f32⟩
  | 20 => ⟨S100000x1, .f32⟩
  | 21 => ⟨S_, .f32⟩
  | 22 => ⟨S100000x1, .f32⟩
  | 23 => ⟨S100000x1, .f32⟩
  | 24 => ⟨S100000x128, .f32⟩
  | 25 => ⟨S100000x128, .f32⟩
  | 26 => ⟨S_, .f32⟩
  | 27 => ⟨S512x128, .f32⟩
  | 28 => ⟨S100000x1, .i32⟩
  | 29 => ⟨S512x128, .f32⟩
  | 30 => ⟨S_, .f32⟩
  | 31 => ⟨S512x1, .f32⟩
  | 32 => ⟨S100000x1, .i32⟩
  | 33 => ⟨S512x1, .f32⟩
  | 34 => ⟨S_, .f32⟩
  | 35 => ⟨S512x1, .f32⟩
  | 36 => ⟨S512x1, .i1⟩
  | 37 => ⟨S_, .f32⟩
  | 38 => ⟨S512x1, .f32⟩
  | 39 => ⟨S512x1, .i1⟩
  | 40 => ⟨S_, .f32⟩
  | 41 => ⟨S_, .f32⟩
  | 42 => ⟨S512x1, .f32⟩
  | 43 => ⟨S512x1, .f32⟩
  | 44 => ⟨S512x128, .f32⟩
  | 45 => ⟨S512x128, .f32⟩
  | 46 => ⟨S_, .f32⟩
  | 47 => ⟨S_, .f32⟩
  | 48 => ⟨S512x128, .i1⟩
  | 49 => ⟨S512x128, .f32⟩
  | 50 => ⟨S512x128, .f32⟩
  | 51 => ⟨S512x16, .f32⟩
  | 52 => ⟨S1x16, .f32⟩
  | 53 => ⟨S512x16, .f32⟩
  | 54 => ⟨S512x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call2_cst : Ref sig .tc := ⟨.hbm, 59, rfl⟩
abbrev main_call2_v0 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_6 : Ref sig .tc := ⟨.hbm, 65, rfl⟩
abbrev main_v35 : Ref sig .tc := ⟨.hbm, 66, rfl⟩
abbrev main_v36 : Ref sig .tc := ⟨.hbm, 67, rfl⟩
abbrev main_c_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_call3_cst : Ref sig .tc := ⟨.hbm, 85, rfl⟩
abbrev main_call3_v0 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_9 : Ref sig .tc := ⟨.hbm, 91, rfl⟩
abbrev main_v56 : Ref sig .tc := ⟨.hbm, 92, rfl⟩
abbrev main_v57 : Ref sig .tc := ⟨.hbm, 93, rfl⟩
abbrev main_c_10 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_11 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call4_cst : Ref sig .tc := ⟨.hbm, 111, rfl⟩
abbrev main_call4_v0 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_12 : Ref sig .tc := ⟨.hbm, 117, rfl⟩
abbrev main_v77 : Ref sig .tc := ⟨.hbm, 118, rfl⟩
abbrev main_v78 : Ref sig .tc := ⟨.hbm, 119, rfl⟩
abbrev main_c_13 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_14 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_call5_cst : Ref sig .tc := ⟨.hbm, 137, rfl⟩
abbrev main_call5_v0 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_15 : Ref sig .tc := ⟨.hbm, 146, rfl⟩
abbrev main_v101 : Ref sig .tc := ⟨.hbm, 147, rfl⟩
abbrev main_v102 : Ref sig .tc := ⟨.hbm, 148, rfl⟩
abbrev main_cst_16 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_17 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_18 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_19 : Ref sig .tc := ⟨.hbm, 162, rfl⟩
abbrev main_v113 : Ref sig .tc := ⟨.hbm, 163, rfl⟩
abbrev main_v114 : Ref sig .tc := ⟨.hbm, 164, rfl⟩
abbrev main_cst_20 : Ref sig .tc := ⟨.hbm, 165, rfl⟩
abbrev main_v115 : Ref sig .tc := ⟨.hbm, 166, rfl⟩
abbrev main_v116 : Ref sig .tc := ⟨.hbm, 167, rfl⟩
abbrev main_cst_21 : Ref sig .tc := ⟨.hbm, 168, rfl⟩
abbrev main_call6_v0 : Ref sig .tc := ⟨.hbm, 169, rfl⟩
abbrev main_call6_v1 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_22 : Ref sig .tc := ⟨.hbm, 174, rfl⟩
abbrev main_call7_v0 : Ref sig .tc := ⟨.hbm, 175, rfl⟩
abbrev main_call7_v1 : Ref sig .tc := ⟨.hbm, 176, rfl⟩
abbrev main_call7_v2 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S_S512x128 : S_.BroadcastsInDim S512x128 (![] : Fin 0 → Fin S512x128.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  scatter_S512x128_S100000x1_S100000x128_1_0_0_1_wf : ScatterDims.WF S512x128 S100000x1 S100000x128 [1] [0] [0] 1
  scatter_S512x1_S100000x1_S100000x1_1_0_0_1_wf : ScatterDims.WF S512x1 S100000x1 S100000x1 [1] [0] [0] 1
  dot_S512x128_S128x16_S512x16_1_0_0_1_n_n_wf : DotDims.WF S512x128 S128x16 S512x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

class Facts : Prop extends Facts₀ where

variable [Facts]
-- ==== Proof.KernelRun.lean ====
/-
  The idealized kernel's run with its result named.

  @main is twenty segments: stretches of host operations and six tiled regions. Walking the segments from the launch
  memory gives the contents of every buffer at every segment boundary; the last boundary's contents are `W20`. Every
  weakly fair execution ends with each unscoped buffer at its `W20` contents, so in particular the result buffer ends
  at `W20` read at the result's reference, and the sixteen argument arrays end as launched.
-/
import proofs.«130892_j12841952215814_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents, and the argument arrays end as launched. -/
theorem run_result : θ_run defs (onTc (τ := τ) (main (F := F))) ⟨m, fun _ => 0, ρ⟩ (fun r => ∀ c : Dev nD,
      r.2.mem ((c.tc : Thread nD τ).loc main_v100) = W20 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v100 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c)⟩)

end Cert.KernelIdeal.Whole

end
-- ==== Proof.LibBiasRows.lean ====
/-
  A vector as a one-row matrix: the bias of a dense layer.

  A bias vector of length C enters a dense layer as the one-row matrix [1, C], either by a reshape or by a broadcast
  that is then broadcast again over the R rows of the layer's output. Read at an entry, both are the vector at the
  entry's column.
-/
import Idealize.ShloMosaic.Lib.ValueIdx
import Idealize.ShloMosaic.Lib.Pipeline.Value

noncomputable section

namespace Cert.Lib.BiasRows

open Idealize.ShloMosaic Idealize.ShloMosaic.ValueIdx

/-- The row coordinate of an index of a two-axis array, at its literal extent. -/
abbrev rowOf {R C : Nat} (i : (⟨2, ![R, C]⟩ : Shape).Idx) : Fin R := ⟨(i 0).val, (i 0).isLt⟩
/-- The column coordinate of an index of a two-axis array, at its literal extent. -/
abbrev colOf {R C : Nat} (i : (⟨2, ![R, C]⟩ : Shape).Idx) : Fin C := ⟨(i 1).val, (i 1).isLt⟩

/-- A vector as a one-row matrix. -/
def asRow {α : Type} {C : Nat} (b : (⟨1, ![C]⟩ : Shape).Idx → α) : (⟨2, ![1, C]⟩ : Shape).Idx → α :=
  fun i => b (ix1 (colOf i))

/-- Reshaping a vector of length C to [1, C] gives that one-row matrix. -/
theorem reshape_row {α : Type} {C : Nat} (b : (⟨1, ![C]⟩ : Shape).Idx → α) (h : (⟨1, ![C]⟩ : Shape).ShapeCasts ⟨2, ![1, C]⟩) :
    shapeCast ⟨2, ![1, C]⟩ b h = asRow b :=
  funext fun i => (shapeCast_addUnit_apply ![C] b h i).trans (congrArg b (funext fun a => by
    match a with
    | ⟨0, _⟩ => rfl))

/-- A vector broadcast to one row and then over R rows, read at (p, q), is the vector at q. -/
theorem bias_rows {α : Type} {R C : Nat} (b : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 b) (ix2 p q) = asRow b (ix2 (0 : Fin 1) q) := by
  have hq : q.val < C := q.isLt
  rw [broadcastInDim_apply ![0, 1] h2 _ (ix2 p q) (ix2 (0 : Fin 1) q) (fun a => by
    match a with
    | ⟨0, _⟩ => show 0 = if (1 : Nat) = 1 then 0 else p.val; rw [if_pos rfl]
    | ⟨1, _⟩ => show q.val = if C = 1 then 0 else q.val; split_ifs <;> omega)]
  rw [broadcastInDim_apply ![1] h1 b (ix2 (0 : Fin 1) q) (ix1 q) (fun a => by
    match a with
    | ⟨0, _⟩ => show q.val = if C = 1 then 0 else q.val; split_ifs <;> omega)]
  rfl

end Cert.Lib.BiasRows

end
-- ==== Proof.RowsTimesColumns.lean ====
/-
  The three dense products of this network, read entry by entry on the extended reals.

  Every product in the kernel is a block of rows [R, 128] times a weight matrix [128, C], accumulated from zero.
  On the extended reals that is, at row p and column q, the plain sum over k of left(p, k) · right(k, q): a change
  of float format is the identity there, and the zero accumulator adds nothing.
-/
import proofs.«130892_j12841952215814_1_alg».proof.Proof.Gen.KernelIdeal.Skeleton
import proofs.«130892_j12841952215814_1_alg».proof.Proof.LibBiasRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dense

open Idealize.ShloMosaic Idealize.ShloMosaic.ValueIdx Cert.KernelIdeal Cert.Lib.BiasRows

/-- The matrix unit's product into a zero accumulator, for a [2000,128] by [128,128] pair: entry (p, q) is the sum over
    the 128 shared coordinates k of left(p, k) · right(k, q). -/
theorem product_hidden (l : S2000x128.Idx → EReal) (r : S128x128.Idx → EReal) (p : Fin 2000) (q : Fin 128) :
    FloatOps.matmul (F := Ideal) (φ₁ := .bf16) (φ₂ := .bf16) dot_S2000x128_S128x128_S2000x128_1_0_0_1_n_n none l r (constant S2000x128 .f32 0x00000000#32) (ix2 p q)
      = ∑ k : Fin 128, l (ix2 p k) * r (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ =>
      show (dot_S2000x128_S128x128_S2000x128_1_0_0_1_n_n.lhsIdx (ix2 p q) _ 0).val = p.val
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl
    | ⟨1, _⟩ => exact (dot_S2000x128_S128x128_S2000x128_1_0_0_1_n_n.lhsIdx_val_of_single rfl (ix2 p q) _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl (ix2 p q) _).trans hk
    | ⟨1, _⟩ =>
      show (dot_S2000x128_S128x128_S2000x128_1_0_0_1_n_n.rhsIdx (ix2 p q) _ 1).val = q.val
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
  rw [el, er]

/-- The matrix unit's product into a zero accumulator, for a [2000,128] by [128,1] pair: entry (p, q) is the sum over
    the 128 shared coordinates k of left(p, k) · right(k, q). -/
theorem product_gate (l : S2000x128.Idx → EReal) (r : S128x1.Idx → EReal) (p : Fin 2000) (q : Fin 1) :
    FloatOps.matmul (F := Ideal) (φ₁ := .bf16) (φ₂ := .bf16) dot_S2000x128_S128x1_S2000x1_1_0_0_1_n_n none l r (constant S2000x1 .f32 0x00000000#32) (ix2 p q)
      = ∑ k : Fin 128, l (ix2 p k) * r (ix2 k q) := by
  rw [Ideal.matmul_constant_zero_apply, ← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 p q) ((contrEquiv1 dot_S2000x128_S128x1_S2000x1_1_0_0_1_n_n 128 rfl rfl).symm k) = ix2 p k := funext fun a => Fin.ext (by
    match a with
    | ⟨0, _⟩ =>
      show (dot_S2000x128_S128x1_S2000x1_1_0_0_1_n_n.lhsIdx (ix2 p q) _ 0).val = p.val
      unfold DotDims.lhsIdx
      rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
      rfl
    | ⟨1, _⟩ => exact (dot_S2000x128_S128x1_S2000x1_1_0_0_1_n_n.lhsIdx_val_of_single rfl (ix2 p q) _).trans hk)
  have er : dot_S2000x128_S128x1_S2000x1_1_0_0_1_n_n.rhsIdx (ix2 p q) ((contrEquiv1 dot_S2000x128_S128x1_S2000x1_1_0_0_1_n_n 128 rfl rfl).symm k) = ix2 k q := funext fun a => Fin.ext (by
    match a with
    | ⟨0, _⟩ => exact (dot_S2000x128_S128x1_S2000x1_1_0_0_1_n_n.rhsIdx_val_of_single rfl (ix2 p q) _).trans hk
    | ⟨1, _⟩ =>
      show (dot_S2000x128_S128x1_S2000x1_1_0_0_1_n_n.rhsIdx (ix2 p q) _ 1).val = q.val
      unfold DotDims.rhsIdx
      rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
      rfl)
  rw [el, er]

/-- The matrix unit's product into a zero accumulator, for a [512,128] by [128,16] pair: entry (p, q) is the sum over
    the 128 shared coordinates k of left(p, k) · right(k, q). -/
theorem product_classes (l : S512x128.Idx → EReal) (r : S128x16.Idx → EReal) (p : Fin 512) (q : Fin 16) :
    FloatOps.matmul (F := Ideal) (φ₁ := .bf16) (φ₂ := .bf16) dot_S512x128_S128x16_S512x16_1_0_0_1_n_n none l r (constant S512x16 .f32 0x00000000#32) (ix2 p q)
      = ∑ k : Fin 128, l (ix2 p k) * r (ix2 k q) := by
  rw [Ideal.matmul_constant_zero_apply, ← Equiv.sum_comp (contrEquiv1 dot_S512x128_S128x16_S512x16_1_0_0_1_n_n 128 rfl rfl).symm]
  refine Finset.sum_congr rfl fun k _ => ?_
  have hk := contrEquiv1_symm_val dot_S512x128_S128x16_S512x16_1_0_0_1_n_n 128 rfl rfl k
  have el : dot_S512x128_S128x16_S512x16_1_0_0_1_n_n.lhsIdx (ix2 p q) ((contrEquiv1 dot_S512x128_S128x16_S512x16_1_0_0_1_n_n 128 rfl rfl).symm k) = ix2 p k := funext fun a => Fin.ext (by
    match a with
    | ⟨0, _⟩ =>
      show (dot_S512x128_S128x16_S512x16_1_0_0_1_n_n.lhsIdx (ix2 p q) _ 0).val = p.val
      unfold DotDims.lhsIdx
      rw [dif_neg (show ¬(0 : Fin S512x128.rank) ∈ dot_S512x128_S128x16_S512x16_1_0_0_1_n_n.lhsBatch by decide), dif_pos (show (0 : Fin S512x128.rank) ∈ dot_S512x128_S128x16_S512x16_1_0_0_1_n_n.lhsNonContracting by decide)]
      rfl
    | ⟨1, _⟩ => exact (dot_S512x128_S128x16_S512x16_1_0_0_1_n_n.lhsIdx_val_of_single rfl (ix2 p q) _).trans hk)
  have er : dot_S512x128_S128x16_S512x16_1_0_0_1_n_n.rhsIdx (ix2 p q) ((contrEquiv1 dot_S512x128_S128x16_S512x16_1_0_0_1_n_n 128 rfl rfl).symm k) = ix2 k q := funext fun a => Fin.ext (by
    match a with
    | ⟨0, _⟩ => exact (dot_S512x128_S128x16_S512x16_1_0_0_1_n_n.rhsIdx_val_of_single rfl (ix2 p q) _).trans hk
    | ⟨1, _⟩ =>
      show (dot_S512x128_S128x16_S512x16_1_0_0_1_n_n.rhsIdx (ix2 p q) _ 1).val = q.val
      unfold DotDims.rhsIdx
      rw [dif_neg (show ¬(1 : Fin S128x16.rank) ∈ dot_S512x128_S128x16_S512x16_1_0_0_1_n_n.rhsBatch by decide), dif_pos (show (1 : Fin S128x16.rank) ∈ dot_S512x128_S128x16_S512x16_1_0_0_1_n_n.rhsNonContracting by decide)]
      rfl)
  rw [el, er]

/-! ## The layers as whole-array functions -/

/-- A dense layer with a clamp: entry (r, q) is max(Σₖ a(r, k) · w(k, q) + b(0, q), 0). The zero is the float zero's
    word, the same word on both sides of the comparison, so it is never evaluated. -/
def denseClamped {R C : Nat} (a : (⟨2, ![R, 128]⟩ : Shape).Idx → EReal) (w : (⟨2, ![128, C]⟩ : Shape).Idx → EReal)
    (b : (⟨2, ![1, C]⟩ : Shape).Idx → EReal) : (⟨2, ![R, C]⟩ : Shape).Idx → EReal :=
  fun i => max ((∑ k : Fin 128, a (ix2 (rowOf i) k) * w (ix2 k (colOf i))) + b (ix2 (0 : Fin 1) (colOf i))) (Ideal.ofBits .f32 0x00000000#32)

/-- A dense layer without a clamp: entry (r, q) is Σₖ a(r, k) · w(k, q) + b(0, q). -/
def dense {R C : Nat} (a : (⟨2, ![R, 128]⟩ : Shape).Idx → EReal) (w : (⟨2, ![128, C]⟩ : Shape).Idx → EReal)
    (b : (⟨2, ![1, C]⟩ : Shape).Idx → EReal) : (⟨2, ![R, C]⟩ : Shape).Idx → EReal :=
  fun i => (∑ k : Fin 128, a (ix2 (rowOf i) k) * w (ix2 k (colOf i))) + b (ix2 (0 : Fin 1) (colOf i))

/-- The pooling gate: the logistic function of a one-column dense layer. -/
def gate {R : Nat} (a : (⟨2, ![R, 128]⟩ : Shape).Idx → EReal) (w : (⟨2, ![128, 1]⟩ : Shape).Idx → EReal)
    (b : (⟨2, ![1, 1]⟩ : Shape).Idx → EReal) : (⟨2, ![R, 1]⟩ : Shape).Idx → EReal :=
  fun i => Ideal.logistic (dense a w b i)

/-- The gated features: each row of `a` scaled by its gate. -/
def gated {R : Nat} (a : (⟨2, ![R, 128]⟩ : Shape).Idx → EReal) (w : (⟨2, ![128, 1]⟩ : Shape).Idx → EReal)
    (b : (⟨2, ![1, 1]⟩ : Shape).Idx → EReal) : (⟨2, ![R, 128]⟩ : Shape).Idx → EReal :=
  fun i => a i * gate a w b (ix2 (rowOf i) (0 : Fin 1))

/-! ## The bodies at an index -/

/-- The body of hidden layer 1 at row p, column q of its block: the row of the loaded node block times the column of
    the loaded weights, plus the bias at q, clamped below at zero. -/
theorem hidden0_at (x0 : Vec Ideal S2000x128 .f32) (x1 : Vec Ideal S128x128 .f32) (x2 : Vec Ideal S1x128 .f32)
    (p : Fin 2000) (q : Fin 128) :
    Gen.k0_pay1 (F := Ideal) x0 x1 x2 (ix2 p q)
      = max ((∑ k : Fin 128, x0 (ix2 p k) * x1 (ix2 k q)) + x2 (ix2 (0 : Fin 1) q)) (Ideal.ofBits .f32 0x00000000#32) := by
  unfold Gen.k0_pay1
  simp only [shapeCast_self]
  show max (FloatOps.matmul (F := Ideal) (φ₁ := .bf16) (φ₂ := .bf16) dot_S2000x128_S128x128_S2000x128_1_0_0_1_n_n none x0 x1 (constant S2000x128 .f32 0x00000000#32) (ix2 p q)
      + broadcastTo S2000x128 x2 _ (ix2 p q)) (Ideal.ofBits .f32 0x00000000#32) = _
  rw [product_hidden x0 x1 p q, broadcastTo_apply x2 _ (ix2 p q) (ix2 (0 : Fin 1) q) (fun a => by
    match a with
    | ⟨0, _⟩ => rfl
    | ⟨1, _⟩ => rfl)]

/-- The body of hidden layer 2 at row p, column q of its block: the row of the loaded node block times the column of
    the loaded weights, plus the bias at q, clamped below at zero. -/
theorem hidden1_at (x0 : Vec Ideal S2000x128 .f32) (x1 : Vec Ideal S128x128 .f32) (x2 : Vec Ideal S1x128 .f32)
    (p : Fin 2000) (q : Fin 128) :
    Gen.k1_pay1 (F := Ideal) x0 x1 x2 (ix2 p q)
      = max ((∑ k : Fin 128, x0 (ix2 p k) * x1 (ix2 k q)) + x2 (ix2 (0 : Fin 1) q)) (Ideal.ofBits .f32 0x00000000#32) := by
  unfold Gen.k1_pay1
  simp only [shapeCast_self]
  show max (FloatOps.matmul (F := Ideal) (φ₁ := .bf16) (φ₂ := .bf16) dot_S2000x128_S128x128_S2000x128_1_0_0_1_n_n none x0 x1 (constant S2000x128 .f32 0x00000000#32) (ix2 p q)
      + broadcastTo S2000x128 x2 _ (ix2 p q)) (Ideal.ofBits .f32 0x00000000#32) = _
  rw [product_hidden x0 x1 p q, broadcastTo_apply x2 _ (ix2 p q) (ix2 (0 : Fin 1) q) (fun a => by
    match a with
    | ⟨0, _⟩ => rfl
    | ⟨1, _⟩ => rfl)]

/-- The body of hidden layer 3 at row p, column q of its block: the row of the loaded node block times the column of
    the loaded weights, plus the bias at q, clamped below at zero. -/
theorem hidden2_at (x0 : Vec Ideal S2000x128 .f32) (x1 : Vec Ideal S128x128 .f32) (x2 : Vec Ideal S1x128 .f32)
    (p : Fin 2000) (q : Fin 128) :
    Gen.k2_pay1 (F := Ideal) x0 x1 x2 (ix2 p q)
      = max ((∑ k : Fin 128, x0 (ix2 p k) * x1 (ix2 k q)) + x2 (ix2 (0 : Fin 1) q)) (Ideal.ofBits .f32 0x00000000#32) := by
  unfold Gen.k2_pay1
  simp only [shapeCast_self]
  show max (FloatOps.matmul (F := Ideal) (φ₁ := .bf16) (φ₂ := .bf16) dot_S2000x128_S128x128_S2000x128_1_0_0_1_n_n none x0 x1 (constant S2000x128 .f32 0x00000000#32) (ix2 p q)
      + broadcastTo S2000x128 x2 _ (ix2 p q)) (Ideal.ofBits .f32 0x00000000#32) = _
  rw [product_hidden x0 x1 p q, broadcastTo_apply x2 _ (ix2 p q) (ix2 (0 : Fin 1) q) (fun a => by
    match a with
    | ⟨0, _⟩ => rfl
    | ⟨1, _⟩ => rfl)]

/-- The body of hidden layer 4 at row p, column q of its block: the row of the loaded node block times the column of
    the loaded weights, plus the bias at q, clamped below at zero. -/
theorem hidden3_at (x0 : Vec Ideal S2000x128 .f32) (x1 : Vec Ideal S128x128 .f32) (x2 : Vec Ideal S1x128 .f32)
    (p : Fin 2000) (q : Fin 128) :
    Gen.k3_pay1 (F := Ideal) x0 x1 x2 (ix2 p q)
      = max ((∑ k : Fin 128, x0 (ix2 p k) * x1 (ix2 k q)) + x2 (ix2 (0 : Fin 1) q)) (Ideal.ofBits .f32 0x00000000#32) := by
  unfold Gen.k3_pay1
  simp only [shapeCast_self]
  show max (FloatOps.matmul (F := Ideal) (φ₁ := .bf16) (φ₂ := .bf16) dot_S2000x128_S128x128_S2000x128_1_0_0_1_n_n none x0 x1 (constant S2000x128 .f32 0x00000000#32) (ix2 p q)
      + broadcastTo S2000x128 x2 _ (ix2 p q)) (Ideal.ofBits .f32 0x00000000#32) = _
  rw [product_hidden x0 x1 p q, broadcastTo_apply x2 _ (ix2 p q) (ix2 (0 : Fin 1) q) (fun a => by
    match a with
    | ⟨0, _⟩ => rfl
    | ⟨1, _⟩ => rfl)]

/-- The pooling body's gate at row p: the logistic function of the row times the one weight column, plus the bias. -/
theorem gate_at (x0 : Vec Ideal S2000x128 .f32) (x1 : Vec Ideal S128x1 .f32) (x2 : Vec Ideal S1x1 .f32) (p : Fin 2000) :
    Gen.k4_pay2 (F := Ideal) x0 x1 x2 (ix2 p (0 : Fin 1))
      = Ideal.logistic ((∑ k : Fin 128, x0 (ix2 p k) * x1 (ix2 k (0 : Fin 1))) + x2 (ix2 (0 : Fin 1) (0 : Fin 1))) := by
  unfold Gen.k4_pay2 Gen.k4_pay1
  simp only [shapeCast_self]
  show Ideal.logistic (FloatOps.matmul (F := Ideal) (φ₁ := .bf16) (φ₂ := .bf16) dot_S2000x128_S128x1_S2000x1_1_0_0_1_n_n none x0 x1 (constant S2000x1 .f32 0x00000000#32) (ix2 p (0 : Fin 1))
      + broadcastTo S2000x1 x2 _ (ix2 p (0 : Fin 1))) = _
  rw [product_gate x0 x1 p 0, broadcastTo_apply x2 _ (ix2 p (0 : Fin 1)) (ix2 (0 : Fin 1) (0 : Fin 1)) (fun a => by
    match a with
    | ⟨0, _⟩ => rfl
    | ⟨1, _⟩ => rfl)]

/-- The pooling body's gated features at (p, q): the loaded feature times the gate of its row. -/
theorem gated_at (x0 : Vec Ideal S2000x128 .f32) (x1 : Vec Ideal S128x1 .f32) (x2 : Vec Ideal S1x1 .f32) (p : Fin 2000) (q : Fin 128) :
    Gen.k4_pay3 (F := Ideal) x0 x1 x2 (ix2 p q) = x0 (ix2 p q) * Gen.k4_pay2 (F := Ideal) x0 x1 x2 (ix2 p (0 : Fin 1)) := by
  unfold Gen.k4_pay3 Gen.k4_pay1
  simp only [shapeCast_self]
  show x0 (ix2 p q) * broadcastTo S2000x128 (Gen.k4_pay2 (F := Ideal) x0 x1 x2) _ (ix2 p q) = _
  rw [broadcastTo_apply (Gen.k4_pay2 (F := Ideal) x0 x1 x2) _ (ix2 p q) (ix2 p (0 : Fin 1)) (fun a => by
    match a with
    | ⟨0, _⟩ => rfl
    | ⟨1, _⟩ => rfl)]

/-- The gated feature at (p, q) with its gate written out. -/
theorem gated_full_at (x0 : Vec Ideal S2000x128 .f32) (x1 : Vec Ideal S128x1 .f32) (x2 : Vec Ideal S1x1 .f32) (p : Fin 2000) (q : Fin 128) :
    Gen.k4_pay3 (F := Ideal) x0 x1 x2 (ix2 p q)
      = x0 (ix2 p q) * Ideal.logistic ((∑ k : Fin 128, x0 (ix2 p k) * x1 (ix2 k (0 : Fin 1))) + x2 (ix2 (0 : Fin 1) (0 : Fin 1))) :=
  (gated_at x0 x1 x2 p q).trans (congrArg (fun g : EReal => x0 (ix2 p q) * g) (gate_at x0 x1 x2 p))

/-- The classifier body at (p, q): the pooled row times the class column, plus the class bias. -/
theorem classes_at (x0 : Vec Ideal S512x128 .f32) (x1 : Vec Ideal S128x16 .f32) (x2 : Vec Ideal S1x16 .f32) (p : Fin 512) (q : Fin 16) :
    Gen.k5_pay1 (F := Ideal) x0 x1 x2 (ix2 p q) = (∑ k : Fin 128, x0 (ix2 p k) * x1 (ix2 k q)) + x2 (ix2 (0 : Fin 1) q) := by
  unfold Gen.k5_pay1
  simp only [shapeCast_self]
  show FloatOps.matmul (F := Ideal) (φ₁ := .bf16) (φ₂ := .bf16) dot_S512x128_S128x16_S512x16_1_0_0_1_n_n none x0 x1 (constant S512x16 .f32 0x00000000#32) (ix2 p q)
      + broadcastTo S512x16 x2 _ (ix2 p q) = _
  rw [product_classes x0 x1 p q, broadcastTo_apply x2 _ (ix2 p q) (ix2 (0 : Fin 1) q) (fun a => by
    match a with
    | ⟨0, _⟩ => rfl
    | ⟨1, _⟩ => rfl)]

end Cert.KernelIdeal.Dense

end
-- ==== Proof.HiddenLayer0.lean ====
/-
  Hidden layer 1, from blocks to the whole array.

  The region tiles the 100000 node rows into 50 blocks of 2000. At point t the body reads rows 2000·t … 2000·t + 1999 of
  the aggregated features, the whole weight matrix and the bias row, and writes back the same rows of the result. Each
  written block is the restriction of ONE function of the three arrays as the region finds them — the clamped dense
  layer — and the 50 blocks cover every row, so the result array ends holding that function.
-/
import proofs.«130892_j12841952215814_1_alg».proof.Proof.Gen.KernelIdeal.Frame
import proofs.«130892_j12841952215814_1_alg».proof.Proof.RowsTimesColumns

set_option maxRecDepth 16384

noncomputable section

namespace Cert.KernelIdeal.Hidden0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Dense

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t, decided once over the grid: the node block and the result block are
    block t of the rows; the weights and the bias are their whole arrays. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The layer as one function of the three arrays the region finds. -/
abbrev layer (c : Dev nD) : S100000x128.Idx → EReal :=
  denseClamped (R := 100000) (C := 128) (V c main_v26) (V c main_arg1) (V c main_v27)

/-- What point t writes back is block t of the layer. -/
theorem written_block (c : Dev nD) (t : Fin cfg0.N) :
    (dat0 (F := Ideal) V c).flushed 3 t = ((cfg0.win 3).blk t).view.read (Elt Ideal) (layer V c) := by
  show (cfg0.win 3).cut (grid0.coords t) ((dat0 (F := Ideal) V c).after 3 t) = _
  rw [after0_3]
  unfold out0_3
  rw [View.canon_unit_zero origin]
  simp only [View.ld_unit_zero (S := S2000x128) origin, View.ld_unit_zero (S := S128x128) origin, View.ld_unit_zero (S := S1x128) origin]
  obtain ⟨e00, e01, e10, e11, e20, e21, e30, e31⟩ := block_index t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
      = layer V c (((cfg0.win 3).blk t).view.emb (ix2 p q))
  refine (hidden0_at _ _ _ p q).trans ?_
  have hp : p.val < 2000 := p.isLt
  have hq : q.val < 128 := q.isLt
  unfold layer denseClamped
  refine congrArg (fun s => max s (Ideal.ofBits .f32 0x00000000#32)) ?_
  refine congrArg₂ (· + ·) (Finset.sum_congr rfl fun k _ => congrArg₂ (· * ·) ?_ ?_) ?_
  · show V c main_v26 (((cfg0.win 0).blk t).view.emb (ix2 p k)) = V c main_v26 _
    refine congrArg (V c main_v26) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  · show V c main_arg1 (((cfg0.win 1).blk t).view.emb (ix2 k q)) = V c main_arg1 _
    refine congrArg (V c main_arg1) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · show V c main_v27 (((cfg0.win 2).blk t).view.emb (ix2 (0 : Fin 1) q)) = V c main_v27 _
    refine congrArg (V c main_v27) (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the result array is in point t's block iff each coordinate is in the block's range on its axis. -/
theorem in_block (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v28).slice (win0_3.rect t)).set ↔ _
  rw [View.set_slice_whole, Rect.mem_set_unit]
  exact Iff.rfl

/-- Row r of the result lies in block r / 2000, and every block is written back. -/
theorem rows_covered (i : S100000x128.Idx) :
    ∃ t : Fin cfg0.N, (cfg0.win 3).flush t = true ∧ i ∈ ((cfg0.win 3).blk t).view.set := by
  have hN : cfg0.N = 50 := N_0
  have hi0 : (i 0).val < 100000 := (i 0).isLt
  have hi1 : (i 1).val < 128 := (i 1).isLt
  let t : Fin cfg0.N := ⟨(i 0).val / 2000, by omega⟩
  obtain ⟨-, -, -, -, -, -, e30, e31⟩ := block_index t
  have ht : t.val = (i 0).val / 2000 := rfl
  refine ⟨t, flush0_3 t, ?_⟩
  rw [in_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The result array after the region is the layer of the arrays the region found. -/
theorem result_array (c : Dev nD) : (dat0 (F := Ideal) V c).arrAt 3 cfg0.N = layer V c :=
  (dat0 (F := Ideal) V c).arrAt_eq_of_cover 3 (layer V c) (fun t _ => written_block V c t) rows_covered

end Cert.KernelIdeal.Hidden0

end
-- ==== Proof.HiddenLayer1.lean ====
/-
  Hidden layer 2, from blocks to the whole array.

  The region tiles the 100000 node rows into 50 blocks of 2000. At point t the body reads rows 2000·t … 2000·t + 1999 of
  the aggregated features, the whole weight matrix and the bias row, and writes back the same rows of the result. Each
  written block is the restriction of ONE function of the three arrays as the region finds them — the clamped dense
  layer — and the 50 blocks cover every row, so the result array ends holding that function.
-/
import proofs.«130892_j12841952215814_1_alg».proof.Proof.Gen.KernelIdeal.Frame
import proofs.«130892_j12841952215814_1_alg».proof.Proof.RowsTimesColumns

set_option maxRecDepth 16384

noncomputable section

namespace Cert.KernelIdeal.Hidden1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Dense

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t, decided once over the grid: the node block and the result block are
    block t of the rows; the weights and the bias are their whole arrays. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The layer as one function of the three arrays the region finds. -/
abbrev layer (c : Dev nD) : S100000x128.Idx → EReal :=
  denseClamped (R := 100000) (C := 128) (V c main_v44) (V c main_arg3) (V c main_v45)

/-- What point t writes back is block t of the layer. -/
theorem written_block (c : Dev nD) (t : Fin cfg1.N) :
    (dat1 (F := Ideal) V c).flushed 3 t = ((cfg1.win 3).blk t).view.read (Elt Ideal) (layer V c) := by
  show (cfg1.win 3).cut (grid1.coords t) ((dat1 (F := Ideal) V c).after 3 t) = _
  rw [after1_3]
  unfold out1_3
  rw [View.canon_unit_zero origin]
  simp only [View.ld_unit_zero (S := S2000x128) origin, View.ld_unit_zero (S := S128x128) origin, View.ld_unit_zero (S := S1x128) origin]
  obtain ⟨e00, e01, e10, e11, e20, e21, e30, e31⟩ := block_index t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (ix2 p q)
      = layer V c (((cfg1.win 3).blk t).view.emb (ix2 p q))
  refine (hidden1_at _ _ _ p q).trans ?_
  have hp : p.val < 2000 := p.isLt
  have hq : q.val < 128 := q.isLt
  unfold layer denseClamped
  refine congrArg (fun s => max s (Ideal.ofBits .f32 0x00000000#32)) ?_
  refine congrArg₂ (· + ·) (Finset.sum_congr rfl fun k _ => congrArg₂ (· * ·) ?_ ?_) ?_
  · show V c main_v44 (((cfg1.win 0).blk t).view.emb (ix2 p k)) = V c main_v44 _
    refine congrArg (V c main_v44) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * k.val = k.val; omega
  · show V c main_arg3 (((cfg1.win 1).blk t).view.emb (ix2 k q)) = V c main_arg3 _
    refine congrArg (V c main_arg3) (funext fun a => Fin.ext ?_)
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  · show V c main_v45 (((cfg1.win 2).blk t).view.emb (ix2 (0 : Fin 1) q)) = V c main_v45 _
    refine congrArg (V c main_v45) (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- An index of the result array is in point t's block iff each coordinate is in the block's range on its axis. -/
theorem in_block (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v46).slice (win1_3.rect t)).set ↔ _
  rw [View.set_slice_whole, Rect.mem_set_unit]
  exact Iff.rfl

/-- Row r of the result lies in block r / 2000, and every block is written back. -/
theorem rows_covered (i : S100000x128.Idx) :
    ∃ t : Fin cfg1.N, (cfg1.win 3).flush t = true ∧ i ∈ ((cfg1.win 3).blk t).view.set := by
  have hN : cfg1.N = 50 := N_1
  have hi0 : (i 0).val < 100000 := (i 0).isLt
  have hi1 : (i 1).val < 128 := (i 1).isLt
  let t : Fin cfg1.N := ⟨(i 0).val / 2000, by omega⟩
  obtain ⟨-, -, -, -, -, -, e30, e31⟩ := block_index t
  have ht : t.val = (i 0).val / 2000 := rfl
  refine ⟨t, flush1_3 t, ?_⟩
  rw [in_block]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The result array after the region is the layer of the arrays the region found. -/
theorem result_array (c : Dev nD) : (dat1 (F := Ideal) V c).arrAt 3 cfg1.N = layer V c :=
  (dat1 (F := Ideal) V c).arrAt_eq_of_cover 3 (layer V c) (fun t _ => written_block V c t) rows_covered

end Cert.KernelIdeal.Hidden1

end
-- ==== Proof.HiddenLayer2.lean ====
/-
  Hidden layer 3, from blocks to the whole array.

  The region tiles the 100000 node rows into 50 blocks of 2000. At point t the body reads rows 2000·t … 2000·t + 1999 of
  the aggregated features, the whole weight matrix and the bias row, and writes back the same rows of the result. Each
  written block is the restriction of ONE function of the three arrays as the region finds them — the clamped dense
  layer — and the 50 blocks cover every row, so the result array ends holding that function.
-/
import proofs.«130892_j12841952215814_1_alg».proof.Proof.Gen.KernelIdeal.Frame
import proofs.«130892_j12841952215814_1_alg».proof.Proof.RowsTimesColumns

set_option maxRecDepth 16384

noncomputable section

namespace Cert.KernelIdeal.Hidden2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Dense

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t, decided once over the grid: the node block and the result block are
    block t of the rows; the weights and the bias are their whole arrays. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The layer as one function of the three arrays the region finds. -/
abbrev layer (c : Dev nD) : S100000x128.Idx → EReal :=
  denseClamped (R := 100000) (C := 128) (V c main_v62) (V c main_arg5) (V c main_v63)

/-- What point t writes back is block t of the layer. -/
theorem written_block (c : Dev nD) (t : Fin cfg2.N) :
    (dat2 (F := Ideal) V c).flushed 3 t = ((cfg2.win 3).blk t).view.read (Elt Ideal) (layer V c) := by
  show (cfg2.win 3).cut (grid2.coords t) ((dat2 (F := Ideal) V c).after 3 t) = _
  rw [after2_3]
  unfold out2_3
  rw [View.canon_unit_zero origin]
  simp only [View.ld_unit_zero (S := S2000x128) origin, View.ld_unit_zero (S := S128x128) origin, View.ld_unit_zero (S := S1x128) origin]
  obtain ⟨e00, e01, e10, e11, e20, e21, e30, e31⟩ := block_index t
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (ix2 p q)
      = layer V c (((cfg2.win 3).blk t).view.emb (ix2 p q))
  refine (hidden2_at _ _ _ p q).trans ?_
  have hp : p.val < 2000 := p.isLt
  have hq : q.val < 128 := q.isLt
  unfold layer denseClamped
  refine congrArg (fun s => max s (Ideal.ofBits .f32 0x00000000#32)) ?_
  refine congrArg₂ (· + ·) (Finset.sum_congr rfl fun k _ => congrArg₂ (· * ·) ?_ ?_) ?_
  · show V c main_v62 (((cfg2.win 0).blk t).view.emb (ix2 p k)) = V c main_v62 _
    refine congrArg (V c main_v62) (funext fun a => Fin.ext ?_)
    match a with
    | ⟨0, _⟩ => show win2_0.index t (0 : Fin 2) * 2000 + 1 * p.val = win2_3.index t (0 : Fin 2) * 2000 + 1 * p.val; omega
    | ⟨1, _⟩ => show win2_0.index t (1 : Fin 2) * 128 + 1 * k.val = k.val; omega
  · show V c main_arg5 (((cfg2.win 1).blk t).view.emb (ix2 k q)) = V c main_arg5 _
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 128 + 1 * q.val = win2_3.index t (1 : Fin 2) * 128 + 1 * q.val; omega
  · show V c main_v63 (((cfg2.win 2).blk t).view.emb (ix2 (0 : Fin 1) q)) = V c main_v63 _
    refine congrArg (V c main_v63) (funext fun a => Fin.ext ?_)
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega

/-- An index of the result array is in point t's block iff each coordinate is in the block's range on its axis. -/
theorem in_block (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v64).slice (win2_3.rect t)).set ↔ _
  rw [View.set_slice_whole, Rect.mem_set_unit]
  exact Iff.rfl

/-- Row r of the result lies in block r / 2000, and every block is written back. -/
theorem rows_covered (i : S100000x128.Idx) :
    ∃ t : Fin cfg2.N, (cfg2.win 3).flush t = true ∧ i ∈ ((cfg2.win 3).blk t).view.set := by
  have hN : cfg2.N = 50 := N_2
  have hi0 : (i 0).val < 100000 := (i 0).isLt
  have hi1 : (i 1).val < 128 := (i 1).isLt
  let t : Fin cfg2.N := ⟨(i 0).val / 2000, by omega⟩
  obtain ⟨-, -, -, -, -, -, e30, e31⟩ := block_index t
  have ht : t.val = (i 0).val / 2000 := rfl
  refine ⟨t, flush2_3 t, ?_⟩
  rw [in_block]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The result array after the region is the layer of the arrays the region found. -/
theorem result_array (c : Dev nD) : (dat2 (F := Ideal) V c).arrAt 3 cfg2.N = layer V c :=
  (dat2 (F := Ideal) V c).arrAt_eq_of_cover 3 (layer V c) (fun t _ => written_block V c t) rows_covered

end Cert.KernelIdeal.Hidden2

end
-- ==== Proof.HiddenLayer3.lean ====
/-
  Hidden layer 4, from blocks to the whole array.

  The region tiles the 100000 node rows into 50 blocks of 2000. At point t the body reads rows 2000·t … 2000·t + 1999 of
  the aggregated features, the whole weight matrix and the bias row, and writes back the same rows of the result. Each
  written block is the restriction of ONE function of the three arrays as the region finds them — the clamped dense
  layer — and the 50 blocks cover every row, so the result array ends holding that function.
-/
import proofs.«130892_j12841952215814_1_alg».proof.Proof.Gen.KernelIdeal.Frame
import proofs.«130892_j12841952215814_1_alg».proof.Proof.RowsTimesColumns

set_option maxRecDepth 16384

noncomputable section

namespace Cert.KernelIdeal.Hidden3

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Dense

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t, decided once over the grid: the node block and the result block are
    block t of the rows; the weights and the bias are their whole arrays. -/
theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The layer as one function of the three arrays the region finds. -/
abbrev layer (c : Dev nD) : S100000x128.Idx → EReal :=
  denseClamped (R := 100000) (C := 128) (V c main_v80) (V c main_arg7) (V c main_v81)

/-- What point t writes back is block t of the layer. -/
theorem written_block (c : Dev nD) (t : Fin cfg3.N) :
    (dat3 (F := Ideal) V c).flushed 3 t = ((cfg3.win 3).blk t).view.read (Elt Ideal) (layer V c) := by
  show (cfg3.win 3).cut (grid3.coords t) ((dat3 (F := Ideal) V c).after 3 t) = _
  rw [after3_3]
  unfold out3_3
  rw [View.canon_unit_zero origin]
  simp only [View.ld_unit_zero (S := S2000x128) origin, View.ld_unit_zero (S := S128x128) origin, View.ld_unit_zero (S := S1x128) origin]
  obtain ⟨e00, e01, e10, e11, e20, e21, e30, e31⟩ := block_index t
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (iblk3 V c 2 t) (ix2 p q)
      = layer V c (((cfg3.win 3).blk t).view.emb (ix2 p q))
  refine (hidden3_at _ _ _ p q).trans ?_
  have hp : p.val < 2000 := p.isLt
  have hq : q.val < 128 := q.isLt
  unfold layer denseClamped
  refine congrArg (fun s => max s (Ideal.ofBits .f32 0x00000000#32)) ?_
  refine congrArg₂ (· + ·) (Finset.sum_congr rfl fun k _ => congrArg₂ (· * ·) ?_ ?_) ?_
  · show V c main_v80 (((cfg3.win 0).blk t).view.emb (ix2 p k)) = V c main_v80 _
    refine congrArg (V c main_v80) (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 128 + 1 * k.val = k.val; omega
  · show V c main_arg7 (((cfg3.win 1).blk t).view.emb (ix2 k q)) = V c main_arg7 _
    refine congrArg (V c main_arg7) (funext fun a => Fin.ext ?_)
    match a with
    | ⟨0, _⟩ => show win3_1.index t (0 : Fin 2) * 128 + 1 * k.val = k.val; omega
    | ⟨1, _⟩ => show win3_1.index t (1 : Fin 2) * 128 + 1 * q.val = win3_3.index t (1 : Fin 2) * 128 + 1 * q.val; omega
  · show V c main_v81 (((cfg3.win 2).blk t).view.emb (ix2 (0 : Fin 1) q)) = V c main_v81 _
    refine congrArg (V c main_v81) (funext fun a => Fin.ext ?_)
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega

/-- An index of the result array is in point t's block iff each coordinate is in the block's range on its axis. -/
theorem in_block (t : Fin cfg3.N) (i : S100000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v82).slice (win3_3.rect t)).set ↔ _
  rw [View.set_slice_whole, Rect.mem_set_unit]
  exact Iff.rfl

/-- Row r of the result lies in block r / 2000, and every block is written back. -/
theorem rows_covered (i : S100000x128.Idx) :
    ∃ t : Fin cfg3.N, (cfg3.win 3).flush t = true ∧ i ∈ ((cfg3.win 3).blk t).view.set := by
  have hN : cfg3.N = 50 := N_3
  have hi0 : (i 0).val < 100000 := (i 0).isLt
  have hi1 : (i 1).val < 128 := (i 1).isLt
  let t : Fin cfg3.N := ⟨(i 0).val / 2000, by omega⟩
  obtain ⟨-, -, -, -, -, -, e30, e31⟩ := block_index t
  have ht : t.val = (i 0).val / 2000 := rfl
  refine ⟨t, flush3_3 t, ?_⟩
  rw [in_block]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- The result array after the region is the layer of the arrays the region found. -/
theorem result_array (c : Dev nD) : (dat3 (F := Ideal) V c).arrAt 3 cfg3.N = layer V c :=
  (dat3 (F := Ideal) V c).arrAt_eq_of_cover 3 (layer V c) (fun t _ => written_block V c t) rows_covered

end Cert.KernelIdeal.Hidden3

end
-- ==== Proof.PoolingBlocks.lean ====
/-
  The pooling region, from blocks to whole arrays.

  The region tiles the 100000 node rows into 50 blocks of 2000 and has two results. At point t the body reads rows
  2000·t … 2000·t + 1999 of the last hidden layer, the whole gate weights (one column) and the gate bias, and writes back
  the same rows of the gate column and of the gated features. Each written block is the restriction of one function of
  the three arrays the region finds, and the 50 blocks cover every row of both results.
-/
import proofs.«130892_j12841952215814_1_alg».proof.Proof.Gen.KernelIdeal.Frame
import proofs.«130892_j12841952215814_1_alg».proof.Proof.RowsTimesColumns

set_option maxRecDepth 16384

noncomputable section

namespace Cert.KernelIdeal.Pool

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Dense

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t, decided once over the grid: the node block and both result blocks are
    block t of the rows; the gate weights and the gate bias are their whole arrays. -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The gate column as one function of the three arrays the region finds. -/
abbrev gateColumn (c : Dev nD) : S100000x1.Idx → EReal :=
  gate (R := 100000) (V c main_v82) (V c main_arg9) (V c main_v83)
/-- The gated features as one function of the three arrays the region finds. -/
abbrev gatedFeatures (c : Dev nD) : S100000x128.Idx → EReal :=
  gated (R := 100000) (V c main_v82) (V c main_arg9) (V c main_v83)

/-- The sum inside the gate at block row p of point t is the sum inside the gate at array row 2000·t + p: the node
    block's row p is the array's row 2000·t + p, and the weights and the bias are read whole. -/
theorem gate_argument (c : Dev nD) (t : Fin cfg4.N) (p : Fin 2000) (r : Fin 100000) (hr : r.val = t.val * 2000 + p.val)
    (x0 : Vec Ideal S2000x128 .f32) (x1 : Vec Ideal S128x1 .f32) (x2 : Vec Ideal S1x1 .f32)
    (a : S100000x128.Idx → EReal) (w : S128x1.Idx → EReal) (b : S1x1.Idx → EReal)
    (h0 : x0 = iblk4 V c 0 t) (h1 : x1 = iblk4 V c 1 t) (h2 : x2 = iblk4 V c 2 t)
    (ha : a = V c main_v82) (hw : w = V c main_arg9) (hb : b = V c main_v83) :
    (∑ k : Fin 128, x0 (ix2 p k) * x1 (ix2 k (0 : Fin 1))) + x2 (ix2 (0 : Fin 1) (0 : Fin 1))
      = (∑ k : Fin 128, a (ix2 r k) * w (ix2 k (0 : Fin 1))) + b (ix2 (0 : Fin 1) (0 : Fin 1)) := by
  subst h0 h1 h2 ha hw hb
  obtain ⟨e00, e01, e10, e11, e20, e21, -, -, -, -⟩ := block_index t
  refine congrArg₂ (· + ·) (Finset.sum_congr rfl fun k _ => congrArg₂ (· * ·) ?_ ?_) ?_
  · show V c main_v82 (((cfg4.win 0).blk t).view.emb (ix2 p k)) = V c main_v82 _
    refine congrArg (V c main_v82) (funext fun a => Fin.ext ?_)
    match a with
    | ⟨0, _⟩ => show win4_0.index t (0 : Fin 2) * 2000 + 1 * p.val = r.val; omega
    | ⟨1, _⟩ => show win4_0.index t (1 : Fin 2) * 128 + 1 * k.val = k.val; omega
  · show V c main_arg9 (((cfg4.win 1).blk t).view.emb (ix2 k (0 : Fin 1))) = V c main_arg9 _
    refine congrArg (V c main_arg9) (funext fun a => Fin.ext ?_)
    match a with
    | ⟨0, _⟩ => show win4_1.index t (0 : Fin 2) * 128 + 1 * k.val = k.val; omega
    | ⟨1, _⟩ => show win4_1.index t (1 : Fin 2) * 1 + 1 * 0 = 0; omega
  · show V c main_v83 (((cfg4.win 2).blk t).view.emb (ix2 (0 : Fin 1) (0 : Fin 1))) = V c main_v83 _
    refine congrArg (V c main_v83) (funext fun a => Fin.ext ?_)
    match a with
    | ⟨0, _⟩ => show win4_2.index t (0 : Fin 2) * 1 + 1 * 0 = 0; omega
    | ⟨1, _⟩ => show win4_2.index t (1 : Fin 2) * 1 + 1 * 0 = 0; omega

/-- What point t writes back to the gate column is block t of the gate column. -/
theorem written_gate (c : Dev nD) (t : Fin cfg4.N) :
    (dat4 (F := Ideal) V c).flushed 3 t = ((cfg4.win 3).blk t).view.read (Elt Ideal) (gateColumn V c) := by
  show (cfg4.win 3).cut (grid4.coords t) ((dat4 (F := Ideal) V c).after 3 t) = _
  rw [after4_3]
  unfold out4_3
  rw [View.canon_unit_zero origin]
  simp only [View.ld_unit_zero (S := S2000x128) origin, View.ld_unit_zero (S := S128x1) origin, View.ld_unit_zero (S := S1x1) origin]
  obtain ⟨-, -, -, -, -, -, e30, e31, -, -⟩ := block_index t
  funext j
  obtain ⟨p, q, rfl⟩ : ∃ (p : Fin 2000) (q : Fin 1), j = ix2 p q := ⟨j 0, j 1, eq_ix2 j⟩
  obtain rfl : q = 0 := Subsingleton.elim _ _
  show k4_pay2 (F := Ideal) (iblk4 V c 0 t) (iblk4 V c 1 t) (iblk4 V c 2 t) (ix2 p (0 : Fin 1))
      = gateColumn V c (((cfg4.win 3).blk t).view.emb (ix2 p (0 : Fin 1)))
  refine (gate_at _ _ _ p).trans ?_
  have hp : p.val < 2000 := p.isLt
  have hN : cfg4.N = 50 := N_4
  have ht : t.val < 50 := hN ▸ t.isLt
  unfold gateColumn gate dense
  refine congrArg Ideal.logistic ?_
  refine (gate_argument V c t p ⟨t.val * 2000 + p.val, by omega⟩ rfl _ _ _ _ _ _ rfl rfl rfl rfl rfl rfl).trans ?_
  refine congrArg₂ (· + ·) (Finset.sum_congr rfl fun k _ => congrArg₂ (· * ·) ?_ ?_) ?_
  · refine congrArg (V c main_v82) (funext fun a => Fin.ext ?_)
    match a with
    | ⟨0, _⟩ => show t.val * 2000 + p.val = win4_3.index t (0 : Fin 2) * 2000 + 1 * p.val; omega
    | ⟨1, _⟩ => rfl
  · refine congrArg (V c main_arg9) (funext fun a => Fin.ext ?_)
    match a with
    | ⟨0, _⟩ => rfl
    | ⟨1, _⟩ => show 0 = win4_3.index t (1 : Fin 2) * 1 + 1 * 0; omega
  · refine congrArg (V c main_v83) (funext fun a => Fin.ext ?_)
    match a with
    | ⟨0, _⟩ => rfl
    | ⟨1, _⟩ => show 0 = win4_3.index t (1 : Fin 2) * 1 + 1 * 0; omega

/-- What point t writes back to the gated features is block t of the gated features. -/
theorem written_gated (c : Dev nD) (t : Fin cfg4.N) :
    (dat4 (F := Ideal) V c).flushed 4 t = ((cfg4.win 4).blk t).view.read (Elt Ideal) (gatedFeatures V c) := by
  show (cfg4.win 4).cut (grid4.coords t) ((dat4 (F := Ideal) V c).after 4 t) = _
  rw [after4_4]
  unfold out4_4
  rw [View.canon_unit_zero origin]
  simp only [View.ld_unit_zero (S := S2000x128) origin, View.ld_unit_zero (S := S128x1) origin, View.ld_unit_zero (S := S1x1) origin]
  obtain ⟨e00, e01, -, -, -, -, -, -, e40, e41⟩ := block_index t
  funext j
  obtain ⟨p, q, rfl⟩ : ∃ (p : Fin 2000) (q : Fin 128), j = ix2 p q := ⟨j 0, j 1, eq_ix2 j⟩
  show k4_pay3 (F := Ideal) (iblk4 V c 0 t) (iblk4 V c 1 t) (iblk4 V c 2 t) (ix2 p q)
      = gatedFeatures V c (((cfg4.win 4).blk t).view.emb (ix2 p q))
  refine (gated_full_at _ _ _ p q).trans ?_
  have hp : p.val < 2000 := p.isLt
  have hq : q.val < 128 := q.isLt
  have hN : cfg4.N = 50 := N_4
  have ht : t.val < 50 := hN ▸ t.isLt
  unfold gatedFeatures gated gate dense
  refine congrArg₂ (· * ·) ?_ (congrArg Ideal.logistic ?_)
  · show V c main_v82 (((cfg4.win 0).blk t).view.emb (ix2 p q)) = V c main_v82 _
    refine congrArg (V c main_v82) (funext fun a => Fin.ext ?_)
    match a with
    | ⟨0, _⟩ => show win4_0.index t (0 : Fin 2) * 2000 + 1 * p.val = win4_4.index t (0 : Fin 2) * 2000 + 1 * p.val; omega
    | ⟨1, _⟩ => show win4_0.index t (1 : Fin 2) * 128 + 1 * q.val = win4_4.index t (1 : Fin 2) * 128 + 1 * q.val; omega
  · refine (gate_argument V c t p ⟨t.val * 2000 + p.val, by omega⟩ rfl _ _ _ _ _ _ rfl rfl rfl rfl rfl rfl).trans ?_
    refine congrArg₂ (· + ·) (Finset.sum_congr rfl fun k _ => congrArg₂ (· * ·) ?_ ?_) ?_
    · refine congrArg (V c main_v82) (funext fun a => Fin.ext ?_)
      match a with
      | ⟨0, _⟩ => show t.val * 2000 + p.val = win4_4.index t (0 : Fin 2) * 2000 + 1 * p.val; omega
      | ⟨1, _⟩ => rfl
    · rfl
    · rfl

/-- An index of the gate column is in point t's block iff each coordinate is in the block's range on its axis. -/
theorem in_gate_block (t : Fin cfg4.N) (i : S100000x1.Idx) :
    i ∈ ((cfg4.win 3).blk t).view.set ↔ ∀ a : Fin 2, win4_3.index t a * S2000x1.size a ≤ (i a).val ∧ (i a).val < win4_3.index t a * S2000x1.size a + S2000x1.size a := by
  show i ∈ ((View.whole main_v84_0).slice (win4_3.rect t)).set ↔ _
  rw [View.set_slice_whole, Rect.mem_set_unit]
  exact Iff.rfl

/-- An index of the gated features is in point t's block iff each coordinate is in the block's range on its axis. -/
theorem in_gated_block (t : Fin cfg4.N) (i : S100000x128.Idx) :
    i ∈ ((cfg4.win 4).blk t).view.set ↔ ∀ a : Fin 2, win4_4.index t a * S2000x128.size a ≤ (i a).val ∧ (i a).val < win4_4.index t a * S2000x128.size a + S2000x128.size a := by
  show i ∈ ((View.whole main_v84_1).slice (win4_4.rect t)).set ↔ _
  rw [View.set_slice_whole, Rect.mem_set_unit]
  exact Iff.rfl

/-- Row r of the gate column lies in block r / 2000, and every block is written back. -/
theorem gate_rows_covered (i : S100000x1.Idx) :
    ∃ t : Fin cfg4.N, (cfg4.win 3).flush t = true ∧ i ∈ ((cfg4.win 3).blk t).view.set := by
  have hN : cfg4.N = 50 := N_4
  have hi0 : (i 0).val < 100000 := (i 0).isLt
  have hi1 : (i 1).val < 1 := (i 1).isLt
  let t : Fin cfg4.N := ⟨(i 0).val / 2000, by omega⟩
  obtain ⟨-, -, -, -, -, -, e30, e31, -, -⟩ := block_index t
  have ht : t.val = (i 0).val / 2000 := rfl
  refine ⟨t, flush4_3 t, ?_⟩
  rw [in_gate_block]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 1 ≤ (i 1).val ∧ (i 1).val < win4_3.index t (1 : Fin 2) * 1 + 1; omega

/-- Row r of the gated features lies in block r / 2000, and every block is written back. -/
theorem gated_rows_covered (i : S100000x128.Idx) :
    ∃ t : Fin cfg4.N, (cfg4.win 4).flush t = true ∧ i ∈ ((cfg4.win 4).blk t).view.set := by
  have hN : cfg4.N = 50 := N_4
  have hi0 : (i 0).val < 100000 := (i 0).isLt
  have hi1 : (i 1).val < 128 := (i 1).isLt
  let t : Fin cfg4.N := ⟨(i 0).val / 2000, by omega⟩
  obtain ⟨-, -, -, -, -, -, -, -, e40, e41⟩ := block_index t
  have ht : t.val = (i 0).val / 2000 := rfl
  refine ⟨t, flush4_4 t, ?_⟩
  rw [in_gated_block]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 128 ≤ (i 1).val ∧ (i 1).val < win4_4.index t (1 : Fin 2) * 128 + 128; omega

/-- The gate column after the region is the gate of the arrays the region found. -/
theorem gate_array (c : Dev nD) : (dat4 (F := Ideal) V c).arrAt 3 cfg4.N = gateColumn V c :=
  (dat4 (F := Ideal) V c).arrAt_eq_of_cover 3 (gateColumn V c) (fun t _ => written_gate V c t) gate_rows_covered

/-- The gated features after the region are the gated features of the arrays the region found. -/
theorem gated_array (c : Dev nD) : (dat4 (F := Ideal) V c).arrAt 4 cfg4.N = gatedFeatures V c :=
  (dat4 (F := Ideal) V c).arrAt_eq_of_cover 4 (gatedFeatures V c) (fun t _ => written_gated V c t) gated_rows_covered

end Cert.KernelIdeal.Pool

end
-- ==== Proof.ClassifierBlocks.lean ====
/-
  The classifier region: one point, whole arrays.

  The region has a single grid point whose blocks are the whole arrays: the pooled graph features [512, 128], the class
  weights [128, 16] and the class bias row. What the point writes back is the dense layer of those three arrays, and its
  one block is the whole result.
-/
import proofs.«130892_j12841952215814_1_alg».proof.Proof.Gen.KernelIdeal.Frame
import proofs.«130892_j12841952215814_1_alg».proof.Proof.RowsTimesColumns

set_option maxRecDepth 16384

noncomputable section

namespace Cert.KernelIdeal.Classes

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Dense

variable (V : (c : Dev nD) → (b : Ref sig .tc) → Buf (Elt Ideal) ((c : Thread nD τ).loc b))

theorem origin : (![0, 0] : Fin 2 → Nat) = fun _ => 0 := funext fun a => by fin_cases a <;> rfl

/-- Every window's block at the one point starts at the origin. -/
theorem block_index : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- The class scores as one function of the three arrays the region finds. -/
abbrev scores (c : Dev nD) : S512x16.Idx → EReal :=
  dense (R := 512) (C := 16) (V c main_v98) (V c main_arg11) (V c main_v99)

/-- What the point writes back is the scores. -/
theorem written_block (c : Dev nD) (t : Fin cfg5.N) :
    (dat5 (F := Ideal) V c).flushed 3 t = ((cfg5.win 3).blk t).view.read (Elt Ideal) (scores V c) := by
  show (cfg5.win 3).cut (grid5.coords t) ((dat5 (F := Ideal) V c).after 3 t) = _
  rw [after5_3]
  unfold out5_3
  rw [View.canon_unit_zero origin]
  simp only [View.ld_unit_zero (S := S512x128) origin, View.ld_unit_zero (S := S128x16) origin, View.ld_unit_zero (S := S1x16) origin]
  obtain ⟨e00, e01, e10, e11, e20, e21, e30, e31⟩ := block_index t
  funext j
  obtain ⟨p, q, rfl⟩ : ∃ (p : Fin 512) (q : Fin 16), j = ix2 p q := ⟨j 0, j 1, eq_ix2 j⟩
  show k5_pay1 (F := Ideal) (iblk5 V c 0 t) (iblk5 V c 1 t) (iblk5 V c 2 t) (ix2 p q)
      = scores V c (((cfg5.win 3).blk t).view.emb (ix2 p q))
  refine (classes_at _ _ _ p q).trans ?_
  have hp : p.val < 512 := p.isLt
  have hq : q.val < 16 := q.isLt
  unfold scores dense
  refine congrArg₂ (· + ·) (Finset.sum_congr rfl fun k _ => congrArg₂ (· * ·) ?_ ?_) ?_
  · show V c main_v98 (((cfg5.win 0).blk t).view.emb (ix2 p k)) = V c main_v98 _
    refine congrArg (V c main_v98) (funext fun a => Fin.ext ?_)
    match a with
    | ⟨0, _⟩ => show win5_0.index t (0 : Fin 2) * 512 + 1 * p.val = win5_3.index t (0 : Fin 2) * 512 + 1 * p.val; omega
    | ⟨1, _⟩ => show win5_0.index t (1 : Fin 2) * 128 + 1 * k.val = k.val; omega
  · show V c main_arg11 (((cfg5.win 1).blk t).view.emb (ix2 k q)) = V c main_arg11 _
    refine congrArg (V c main_arg11) (funext fun a => Fin.ext ?_)
    match a with
    | ⟨0, _⟩ => show win5_1.index t (0 : Fin 2) * 128 + 1 * k.val = k.val; omega
    | ⟨1, _⟩ => show win5_1.index t (1 : Fin 2) * 16 + 1 * q.val = win5_3.index t (1 : Fin 2) * 16 + 1 * q.val; omega
  · show V c main_v99 (((cfg5.win 2).blk t).view.emb (ix2 (0 : Fin 1) q)) = V c main_v99 _
    refine congrArg (V c main_v99) (funext fun a => Fin.ext ?_)
    match a with
    | ⟨0, _⟩ => show win5_2.index t (0 : Fin 2) * 1 + 1 * 0 = 0; omega
    | ⟨1, _⟩ => show win5_2.index t (1 : Fin 2) * 16 + 1 * q.val = win5_3.index t (1 : Fin 2) * 16 + 1 * q.val; omega

/-- An index of the result is in the point's block iff each coordinate is in the block's range on its axis. -/
theorem in_block (t : Fin cfg5.N) (i : S512x16.Idx) :
    i ∈ ((cfg5.win 3).blk t).view.set ↔ ∀ a : Fin 2, win5_3.index t a * S512x16.size a ≤ (i a).val ∧ (i a).val < win5_3.index t a * S512x16.size a + S512x16.size a := by
  show i ∈ ((View.whole main_v100).slice (win5_3.rect t)).set ↔ _
  rw [View.set_slice_whole, Rect.mem_set_unit]
  exact Iff.rfl

/-- The one block is the whole result, and it is written back. -/
theorem all_covered (i : S512x16.Idx) :
    ∃ t : Fin cfg5.N, (cfg5.win 3).flush t = true ∧ i ∈ ((cfg5.win 3).blk t).view.set := by
  have hN : cfg5.N = 1 := N_5
  have hi0 : (i 0).val < 512 := (i 0).isLt
  have hi1 : (i 1).val < 16 := (i 1).isLt
  let t : Fin cfg5.N := ⟨0, by omega⟩
  obtain ⟨-, -, -, -, -, -, e30, e31⟩ := block_index t
  refine ⟨t, flush5_3 t, ?_⟩
  rw [in_block]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 16 ≤ (i 1).val ∧ (i 1).val < win5_3.index t (1 : Fin 2) * 16 + 16; omega

/-- The result array after the region is the scores of the arrays the region found. -/
theorem result_array (c : Dev nD) : (dat5 (F := Ideal) V c).arrAt 3 cfg5.N = scores V c :=
  (dat5 (F := Ideal) V c).arrAt_eq_of_cover 3 (scores V c) (fun t _ => written_block V c t) all_covered

end Cert.KernelIdeal.Classes

end
-- ==== Proof.ReferenceLayers.lean ====
/-
  The reference's dense stages, read entry by entry on the extended reals.

  Each hidden layer of the reference is a whole-array product with the layer's weights, plus the bias broadcast over
  the rows, clamped below at zero; the pooling gate is 1 / (1 + e^(−z)) of a one-column dense layer, which on the
  extended reals is the logistic function of z; the gated features scale each row by its gate; the class scores are
  a dense layer of the pooled features. Each is the corresponding function of RowsTimesColumns.
-/
import proofs.«130892_j12841952215814_1_alg».proof.Proof.Gen.ReferenceIdeal.Read
import proofs.«130892_j12841952215814_1_alg».proof.Proof.RowsTimesColumns

noncomputable section

namespace Cert.ReferenceIdeal.Layers

open Idealize.ShloMosaic Idealize.ShloMosaic.ValueIdx Cert.ReferenceIdeal Cert.KernelIdeal.Dense Cert.Lib.BiasRows

/-- The float word of one is the real number one. -/
theorem word_one : Ideal.ofBits .f32 0x3F800000#32 = 1 := by
  simp [Ideal.ofBits, Ideal.ieee, -EReal.coe_mul]; norm_num

/-- The host's product of a [100000,128] by [128,128] pair at (p, q): the sum over the 128 shared coordinates. -/
theorem host_product_hidden (l : S100000x128.Idx → EReal) (r : S128x128.Idx → EReal) (p : Fin 100000) (q : Fin 128) :
    Host.dotGeneral (F := Ideal) (φ₁ := .f32) (φ₂ := .f32) dot_S100000x128_S128x128_S100000x128_1_0_0_1_n_n none l r (ix2 p q) = ∑ k : Fin 128, l (ix2 p k) * r (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ =>
      show (dot_S100000x128_S128x128_S100000x128_1_0_0_1_n_n.lhsIdx (ix2 p q) _ 0).val = p.val
      unfold DotDims.lhsIdx
      rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
      rfl
    | ⟨1, _⟩ => exact (dot_S100000x128_S128x128_S100000x128_1_0_0_1_n_n.lhsIdx_val_of_single rfl (ix2 p q) _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (dot_S100000x128_S128x128_S100000x128_1_0_0_1_n_n.rhsIdx_val_of_single rfl (ix2 p q) _).trans hk
    | ⟨1, _⟩ =>
      show (dot_S100000x128_S128x128_S100000x128_1_0_0_1_n_n.rhsIdx (ix2 p q) _ 1).val = q.val
      unfold DotDims.rhsIdx
      rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
      rfl)
  rw [el, er]

/-- The host's product of a [100000,128] by [128,1] pair at (p, q): the sum over the 128 shared coordinates. -/
theorem host_product_gate (l : S100000x128.Idx → EReal) (r : S128x1.Idx → EReal) (p : Fin 100000) (q : Fin 1) :
    Host.dotGeneral (F := Ideal) (φ₁ := .f32) (φ₂ := .f32) dot_S100000x128_S128x1_S100000x1_1_0_0_1_n_n none l r (ix2 p q) = ∑ k : Fin 128, l (ix2 p k) * r (ix2 k q) := by
  simp only [Host.dotGeneral]
  rw [Ideal.dotGeneral_apply, ← Equiv.sum_comp (contrEquiv1 dot_S100000x128_S128x1_S100000x1_1_0_0_1_n_n 128 rfl rfl).symm]
  refine Finset.sum_congr rfl fun k _ => ?_
  have hk := contrEquiv1_symm_val dot_S100000x128_S128x1_S100000x1_1_0_0_1_n_n 128 rfl rfl k
  have el : dot_S100000x128_S128x1_S100000x1_1_0_0_1_n_n.lhsIdx (ix2 p q) ((contrEquiv1 dot_S100000x128_S128x1_S100000x1_1_0_0_1_n_n 128 rfl rfl).symm k) = ix2 p k := funext fun a => Fin.ext (by
    match a with
    | ⟨0, _⟩ =>
      show (dot_S100000x128_S128x1_S100000x1_1_0_0_1_n_n.lhsIdx (ix2 p q) _ 0).val = p.val
      unfold DotDims.lhsIdx
      rw [dif_neg (show ¬(0 : Fin S100000x128.rank) ∈ dot_S100000x128_S128x1_S100000x1_1_0_0_1_n_n.lhsBatch by decide), dif_pos (show (0 : Fin S100000x128.rank) ∈ dot_S100000x128_S128x1_S100000x1_1_0_0_1_n_n.lhsNonContracting by decide)]
      rfl
    | ⟨1, _⟩ => exact (dot_S100000x128_S128x1_S100000x1_1_0_0_1_n_n.lhsIdx_val_of_single rfl (ix2 p q) _).trans hk)
  have er : dot_S100000x128_S128x1_S100000x1_1_0_0_1_n_n.rhsIdx (ix2 p q) ((contrEquiv1 dot_S100000x128_S128x1_S100000x1_1_0_0_1_n_n 128 rfl rfl).symm k) = ix2 k q := funext fun a => Fin.ext (by
    match a with
    | ⟨0, _⟩ => exact (dot_S100000x128_S128x1_S100000x1_1_0_0_1_n_n.rhsIdx_val_of_single rfl (ix2 p q) _).trans hk
    | ⟨1, _⟩ =>
      show (dot_S100000x128_S128x1_S100000x1_1_0_0_1_n_n.rhsIdx (ix2 p q) _ 1).val = q.val
      unfold DotDims.rhsIdx
      rw [dif_neg (show ¬(1 : Fin S128x1.rank) ∈ dot_S100000x128_S128x1_S100000x1_1_0_0_1_n_n.rhsBatch by decide), dif_pos (show (1 : Fin S128x1.rank) ∈ dot_S100000x128_S128x1_S100000x1_1_0_0_1_n_n.rhsNonContracting by decide)]
      rfl)
  rw [el, er]

/-- The host's product of a [512,128] by [128,16] pair at (p, q): the sum over the 128 shared coordinates. -/
theorem host_product_classes (l : S512x128.Idx → EReal) (r : S128x16.Idx → EReal) (p : Fin 512) (q : Fin 16) :
    Host.dotGeneral (F := Ideal) (φ₁ := .f32) (φ₂ := .f32) dot_S512x128_S128x16_S512x16_1_0_0_1_n_n none l r (ix2 p q) = ∑ k : Fin 128, l (ix2 p k) * r (ix2 k q) := by
  simp only [Host.dotGeneral]
  rw [Ideal.dotGeneral_apply, ← Equiv.sum_comp (contrEquiv1 dot_S512x128_S128x16_S512x16_1_0_0_1_n_n 128 rfl rfl).symm]
  refine Finset.sum_congr rfl fun k _ => ?_
  have hk := contrEquiv1_symm_val dot_S512x128_S128x16_S512x16_1_0_0_1_n_n 128 rfl rfl k
  have el : dot_S512x128_S128x16_S512x16_1_0_0_1_n_n.lhsIdx (ix2 p q) ((contrEquiv1 dot_S512x128_S128x16_S512x16_1_0_0_1_n_n 128 rfl rfl).symm k) = ix2 p k := funext fun a => Fin.ext (by
    match a with
    | ⟨0, _⟩ =>
      show (dot_S512x128_S128x16_S512x16_1_0_0_1_n_n.lhsIdx (ix2 p q) _ 0).val = p.val
      unfold DotDims.lhsIdx
      rw [dif_neg (show ¬(0 : Fin S512x128.rank) ∈ dot_S512x128_S128x16_S512x16_1_0_0_1_n_n.lhsBatch by decide), dif_pos (show (0 : Fin S512x128.rank) ∈ dot_S512x128_S128x16_S512x16_1_0_0_1_n_n.lhsNonContracting by decide)]
      rfl
    | ⟨1, _⟩ => exact (dot_S512x128_S128x16_S512x16_1_0_0_1_n_n.lhsIdx_val_of_single rfl (ix2 p q) _).trans hk)
  have er : dot_S512x128_S128x16_S512x16_1_0_0_1_n_n.rhsIdx (ix2 p q) ((contrEquiv1 dot_S512x128_S128x16_S512x16_1_0_0_1_n_n 128 rfl rfl).symm k) = ix2 k q := funext fun a => Fin.ext (by
    match a with
    | ⟨0, _⟩ => exact (dot_S512x128_S128x16_S512x16_1_0_0_1_n_n.rhsIdx_val_of_single rfl (ix2 p q) _).trans hk
    | ⟨1, _⟩ =>
      show (dot_S512x128_S128x16_S512x16_1_0_0_1_n_n.rhsIdx (ix2 p q) _ 1).val = q.val
      unfold DotDims.rhsIdx
      rw [dif_neg (show ¬(1 : Fin S128x16.rank) ∈ dot_S512x128_S128x16_S512x16_1_0_0_1_n_n.rhsBatch by decide), dif_pos (show (1 : Fin S128x16.rank) ∈ dot_S512x128_S128x16_S512x16_1_0_0_1_n_n.rhsNonContracting by decide)]
      rfl)
  rw [el, er]

/-- The reference's hidden layer, in its own operations, is the clamped dense layer. -/
theorem clamped_layer (y : S100000x128.Idx → EReal) (w : S128x128.Idx → EReal) (b : S128.Idx → EReal)
    (h1 : S128.BroadcastsInDim S1x128 ![1]) (h2 : S1x128.BroadcastsInDim S100000x128 ![0, 1]) (h3 : S_.BroadcastsInDim S100000x128 ![]) :
    maximumf (F := Ideal) (addf (Host.dotGeneral (φ₁ := .f32) (φ₂ := .f32) dot_S100000x128_S128x128_S100000x128_1_0_0_1_n_n none y w)
        (broadcastInDim S100000x128 ![0, 1] h2 (broadcastInDim S1x128 ![1] h1 b)))
      (broadcastInDim S100000x128 ![] h3 (constant S_ .f32 0x00000000#32))
      = denseClamped (R := 100000) (C := 128) y w (asRow b) := by
  funext i
  obtain ⟨p, q, rfl⟩ : ∃ (p : Fin 100000) (q : Fin 128), i = ix2 p q := ⟨i 0, i 1, eq_ix2 i⟩
  show max (Host.dotGeneral (F := Ideal) (φ₁ := .f32) (φ₂ := .f32) dot_S100000x128_S128x128_S100000x128_1_0_0_1_n_n none y w (ix2 p q)
      + broadcastInDim S100000x128 ![0, 1] h2 (broadcastInDim S1x128 ![1] h1 b) (ix2 p q))
    (broadcastInDim S100000x128 ![] h3 (constant (F := Ideal) S_ .f32 0x00000000#32) (ix2 p q)) = _
  rw [host_product_hidden y w p q, bias_rows (R := 100000) (C := 128) b h1 h2 p q,
    broadcastInDim_apply ![] h3 _ (ix2 p q) ix0 (fun a => a.elim0)]
  rfl

/-- Hidden layer 1 of the reference is the clamped dense layer of its aggregated features. -/
theorem hidden1_eq (x0 : (⟨S100000x128, .f32⟩ : BufTy).Contents (Elt Ideal)) (x1 : (⟨S128x128, .f32⟩ : BufTy).Contents (Elt Ideal)) (x2 : (⟨S128, .f32⟩ : BufTy).Contents (Elt Ideal)) (x13 x14 : (⟨S1600000, .i32⟩ : BufTy).Contents (Elt Ideal)) :
    Read.val_main_v31 (F := Ideal) x0 x1 x2 x13 x14
      = denseClamped (R := 100000) (C := 128) (Read.val_main_v26 (F := Ideal) x0 x13 x14) x1 (asRow x2) := by
  unfold Read.val_main_v31 Read.val_main_v30 Read.val_main_v27 Read.val_main_v29 Read.val_main_v28 Read.val_main_call2_v0 Read.val_main_call2_cst
  exact clamped_layer _ _ _ _ _ _

/-- Hidden layer 2 of the reference is the clamped dense layer of its aggregated features. -/
theorem hidden2_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x13 x14 : (⟨S1600000, .i32⟩ : BufTy).Contents (Elt Ideal)) :
    Read.val_main_v52 (F := Ideal) x0 x1 x2 x3 x4 x13 x14
      = denseClamped (R := 100000) (C := 128) (Read.val_main_v47 (F := Ideal) x0 x1 x2 x13 x14) x3 (asRow x4) := by
  unfold Read.val_main_v52 Read.val_main_v51 Read.val_main_v48 Read.val_main_v50 Read.val_main_v49 Read.val_main_call3_v0 Read.val_main_call3_cst
  exact clamped_layer _ _ _ _ _ _

/-- Hidden layer 3 of the reference is the clamped dense layer of its aggregated features. -/
theorem hidden3_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x13 x14 : (⟨S1600000, .i32⟩ : BufTy).Contents (Elt Ideal)) :
    Read.val_main_v73 (F := Ideal) x0 x1 x2 x3 x4 x5 x6 x13 x14
      = denseClamped (R := 100000) (C := 128) (Read.val_main_v68 (F := Ideal) x0 x1 x2 x3 x4 x13 x14) x5 (asRow x6) := by
  unfold Read.val_main_v73 Read.val_main_v72 Read.val_main_v69 Read.val_main_v71 Read.val_main_v70 Read.val_main_call4_v0 Read.val_main_call4_cst
  exact clamped_layer _ _ _ _ _ _

/-- Hidden layer 4 of the reference is the clamped dense layer of its aggregated features. -/
theorem hidden4_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x13 x14 : (⟨S1600000, .i32⟩ : BufTy).Contents (Elt Ideal)) :
    Read.val_main_v94 (F := Ideal) x0 x1 x2 x3 x4 x5 x6 x7 x8 x13 x14
      = denseClamped (R := 100000) (C := 128) (Read.val_main_v89 (F := Ideal) x0 x1 x2 x3 x4 x5 x6 x13 x14) x7 (asRow x8) := by
  unfold Read.val_main_v94 Read.val_main_v93 Read.val_main_v90 Read.val_main_v92 Read.val_main_v91 Read.val_main_call5_v0 Read.val_main_call5_cst
  exact clamped_layer _ _ _ _ _ _

/-- The reference's gate, in its own operations — one over one plus the exponential of the negated one-column dense
    layer — is the logistic function of that layer. -/
theorem logistic_column (y : S100000x128.Idx → EReal) (w : S128x1.Idx → EReal) (b : S1.Idx → EReal)
    (h1 : S1.BroadcastsInDim S1x1 ![1]) (h2 : S1x1.BroadcastsInDim S100000x1 ![0, 1]) (h3 h4 : S_.BroadcastsInDim S100000x1 ![]) :
    Host.divf (F := Ideal) (broadcastInDim S100000x1 ![] h4 (constant S_ .f32 0x3F800000#32))
        (addf (broadcastInDim S100000x1 ![] h3 (constant S_ .f32 0x3F800000#32))
          (Host.exp (Host.negf (addf (Host.dotGeneral (φ₁ := .f32) (φ₂ := .f32) dot_S100000x128_S128x1_S100000x1_1_0_0_1_n_n none y w)
            (broadcastInDim S100000x1 ![0, 1] h2 (broadcastInDim S1x1 ![1] h1 b))))))
      = gate (R := 100000) y w (asRow b) := by
  funext i
  obtain ⟨p, q, rfl⟩ : ∃ (p : Fin 100000) (q : Fin 1), i = ix2 p q := ⟨i 0, i 1, eq_ix2 i⟩
  obtain rfl : q = 0 := Subsingleton.elim _ _
  show Ideal.div (broadcastInDim S100000x1 ![] h4 (constant (F := Ideal) S_ .f32 0x3F800000#32) (ix2 p (0 : Fin 1)))
      (broadcastInDim S100000x1 ![] h3 (constant (F := Ideal) S_ .f32 0x3F800000#32) (ix2 p (0 : Fin 1))
        + Ideal.exp (-(Host.dotGeneral (F := Ideal) (φ₁ := .f32) (φ₂ := .f32) dot_S100000x128_S128x1_S100000x1_1_0_0_1_n_n none y w (ix2 p (0 : Fin 1))
          + broadcastInDim S100000x1 ![0, 1] h2 (broadcastInDim S1x1 ![1] h1 b) (ix2 p (0 : Fin 1))))) = _
  rw [host_product_gate y w p 0, bias_rows (R := 100000) (C := 1) b h1 h2 p 0,
    broadcastInDim_apply ![] h3 _ (ix2 p (0 : Fin 1)) ix0 (fun a => a.elim0)]
  show Ideal.div (Ideal.ofBits .f32 0x3F800000#32) (Ideal.ofBits .f32 0x3F800000#32 + Ideal.exp (-_)) = Ideal.logistic _
  rw [word_one]
  rfl

/-- The reference's gate column is the gate of the last hidden layer. -/
theorem gate_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) (x13 x14 : (⟨S1600000, .i32⟩ : BufTy).Contents (Elt Ideal)) :
    Read.val_main_v104 (F := Ideal) x0 x1 x2 x3 x4 x5 x6 x7 x8 x9 x10 x13 x14
      = gate (R := 100000) (Read.val_main_v94 (F := Ideal) x0 x1 x2 x3 x4 x5 x6 x7 x8 x13 x14) x9 (asRow x10) := by
  unfold Read.val_main_v104 Read.val_main_v103 Read.val_main_v102 Read.val_main_v101 Read.val_main_v100 Read.val_main_v99 Read.val_main_v98 Read.val_main_v97 Read.val_main_v96 Read.val_main_v95 Read.val_main_cst_15 Read.val_main_cst_16
  exact logistic_column _ _ _ _ _ _ _

/-- The reference's gated features scale each row of the last hidden layer by its gate. -/
theorem gated_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) (x13 x14 : (⟨S1600000, .i32⟩ : BufTy).Contents (Elt Ideal)) :
    Read.val_main_v106 (F := Ideal) x0 x1 x2 x3 x4 x5 x6 x7 x8 x9 x10 x13 x14
      = gated (R := 100000) (Read.val_main_v94 (F := Ideal) x0 x1 x2 x3 x4 x5 x6 x7 x8 x13 x14) x9 (asRow x10) := by
  funext i
  obtain ⟨p, q, rfl⟩ : ∃ (p : Fin 100000) (q : Fin 128), i = ix2 p q := ⟨i 0, i 1, eq_ix2 i⟩
  rw [Read.val_main_v106_apply, Read.val_main_v105_apply, gate_eq]
  rfl

/-- The reference's class scores, in its own operations, are the dense layer of the pooled features. -/
theorem scores_layer (y : S512x128.Idx → EReal) (w : S128x16.Idx → EReal) (b : S16.Idx → EReal)
    (h1 : S16.BroadcastsInDim S1x16 ![1]) (h2 : S1x16.BroadcastsInDim S512x16 ![0, 1]) :
    addf (F := Ideal) (Host.dotGeneral (φ₁ := .f32) (φ₂ := .f32) dot_S512x128_S128x16_S512x16_1_0_0_1_n_n none y w)
        (broadcastInDim S512x16 ![0, 1] h2 (broadcastInDim S1x16 ![1] h1 b))
      = dense (R := 512) (C := 16) y w (asRow b) := by
  funext i
  obtain ⟨p, q, rfl⟩ : ∃ (p : Fin 512) (q : Fin 16), i = ix2 p q := ⟨i 0, i 1, eq_ix2 i⟩
  show Host.dotGeneral (F := Ideal) (φ₁ := .f32) (φ₂ := .f32) dot_S512x128_S128x16_S512x16_1_0_0_1_n_n none y w (ix2 p q)
      + broadcastInDim S512x16 ![0, 1] h2 (broadcastInDim S1x16 ![1] h1 b) (ix2 p q) = _
  rw [host_product_classes y w p q, bias_rows (R := 512) (C := 16) b h1 h2 p q]
  rfl

/-- The reference's result is the dense layer of its pooled features. -/
theorem scores_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) (x11 : (⟨S128x16, .f32⟩ : BufTy).Contents (Elt Ideal)) (x12 : (⟨S16, .f32⟩ : BufTy).Contents (Elt Ideal)) (x13 x14 : (⟨S1600000, .i32⟩ : BufTy).Contents (Elt Ideal)) (x15 : (⟨S100000, .i32⟩ : BufTy).Contents (Elt Ideal)) :
    Read.val_main_v124 (F := Ideal) x0 x1 x2 x3 x4 x5 x6 x7 x8 x9 x10 x11 x12 x13 x14 x15
      = dense (R := 512) (C := 16) (Read.val_main_v120 (F := Ideal) x0 x1 x2 x3 x4 x5 x6 x7 x8 x9 x10 x13 x14 x15) x11 (asRow x12) := by
  unfold Read.val_main_v124 Read.val_main_v123 Read.val_main_v122 Read.val_main_v121
  exact scores_layer _ _ _ _ _

end Cert.ReferenceIdeal.Layers

end
-- ==== Proof.Boundaries.lean ====
/-
  The contents of the kernel's buffers at the boundaries between its segments, as the reference's stages.

  The kernel's @main runs the same host operations as the reference between its six tiled regions. Walking the
  segments from the launch memory, each buffer a later segment reads holds, at that segment's entry, the reference's
  corresponding stage evaluated at the launch arguments: the host stretches are the same operations applied to equal
  operands, and each region's result array is the dense layer the reference computes whole.
-/
import proofs.«130892_j12841952215814_1_alg».proof.Proof.Gen.KernelIdeal.Frame
import proofs.«130892_j12841952215814_1_alg».proof.Proof.HiddenLayer0
import proofs.«130892_j12841952215814_1_alg».proof.Proof.HiddenLayer1
import proofs.«130892_j12841952215814_1_alg».proof.Proof.HiddenLayer2
import proofs.«130892_j12841952215814_1_alg».proof.Proof.HiddenLayer3
import proofs.«130892_j12841952215814_1_alg».proof.Proof.PoolingBlocks
import proofs.«130892_j12841952215814_1_alg».proof.Proof.ClassifierBlocks
import proofs.«130892_j12841952215814_1_alg».proof.Proof.ReferenceLayers

set_option maxRecDepth 16384

noncomputable section

namespace Cert.KernelIdeal.Walk

open Idealize.ShloMosaic Idealize.ShloMosaic.TcCoe Idealize.ShloMosaic.StableHlo Idealize.SL.Sem
open Cert.KernelIdeal Cert.KernelIdeal.Gen Cert.KernelIdeal.Dense Cert.ReferenceIdeal.Layers Cert.Lib.BiasRows

variable (m : (ℓ : Loc nD τ sig) → Buf (Elt Ideal) ℓ) (ρ : Dev nD → PrngReg)

/-! ## What each host stretch writes -/

/-- The references the stretch `hostOps0` writes. -/
abbrev written0 : List (Ref sig .tc) := [main_cst, main_v0, main_cst_0, main_v1, main_v2, main_v3, main_cst_1]
theorem writes0 : (hostOps0 : List (HloOp τ sig (Elt Ideal))).Forall fun op => op.writes ⊆ (written0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references the stretch `hostOps0_1` writes. -/
abbrev written0_1 : List (Ref sig .tc) := [main_call0_v0, main_call0_v1, main_v4]
theorem writes0_1 : (hostOps0_1 : List (HloOp τ sig (Elt Ideal))).Forall fun op => op.writes ⊆ (written0_1.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references the stretch `hostOps0_2` writes. -/
abbrev written0_2 : List (Ref sig .tc) := [main_cst_2, main_v5, main_v6, main_v7, main_cst_3]
theorem writes0_2 : (hostOps0_2 : List (HloOp τ sig (Elt Ideal))).Forall fun op => op.writes ⊆ (written0_2.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references the stretch `hostOps0_3` writes. -/
abbrev written0_3 : List (Ref sig .tc) := [main_call1_v0, main_call1_v1, main_v8]
theorem writes0_3 : (hostOps0_3 : List (HloOp τ sig (Elt Ideal))).Forall fun op => op.writes ⊆ (written0_3.map (Proc.devRef (τ := τ) .tc)).toFinset := by
  simp only [hostOps0_3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references the stretch `hostOps0_4` writes. -/
abbrev written0_4 : List (Ref sig .tc) := [main_v9, main_v10, main_v11, main_v12, main_v13, main_c, main_v14, main_v15, main_c_4, main_v16, main_v17, main_v18, main_v19, main_v20, main_cst_5, main_v21, main_v22, main_v23, main_v24, main_v25, main_v26, main_v27]
theorem writes0_4 : (hostOps0_4 : List (HloOp τ sig (Elt Ideal))).Forall fun op => op.writes ⊆ (written0_4.map (Proc.devRef (τ := τ) .tc)).toFinset := by
  simp only [hostOps0_4, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references the stretch `hostOps1` writes. -/
abbrev written1 : List (Ref sig .tc) := [main_v29, main_v30, main_v31, main_c_6, main_v32, main_v33, main_c_7, main_v34, main_v35, main_v36, main_v37, main_v38, main_cst_8, main_v39, main_v40, main_v41, main_v42, main_v43, main_v44, main_v45]
theorem writes1 : (hostOps1 : List (HloOp τ sig (Elt Ideal))).Forall fun op => op.writes ⊆ (written1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references the stretch `hostOps2` writes. -/
abbrev written2 : List (Ref sig .tc) := [main_v47, main_v48, main_v49, main_c_9, main_v50, main_v51, main_c_10, main_v52, main_v53, main_v54, main_v55, main_v56, main_cst_11, main_v57, main_v58, main_v59, main_v60, main_v61, main_v62, main_v63]
theorem writes2 : (hostOps2 : List (HloOp τ sig (Elt Ideal))).Forall fun op => op.writes ⊆ (written2.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references the stretch `hostOps3` writes. -/
abbrev written3 : List (Ref sig .tc) := [main_v65, main_v66, main_v67, main_c_12, main_v68, main_v69, main_c_13, main_v70, main_v71, main_v72, main_v73, main_v74, main_cst_14, main_v75, main_v76, main_v77, main_v78, main_v79, main_v80, main_v81]
theorem writes3 : (hostOps3 : List (HloOp τ sig (Elt Ideal))).Forall fun op => op.writes ⊆ (written3.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references the stretch `hostOps4` writes. -/
abbrev written4 : List (Ref sig .tc) := [main_v83]
theorem writes4 : (hostOps4 : List (HloOp τ sig (Elt Ideal))).Forall fun op => op.writes ⊆ (written4.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references the stretch `hostOps5` writes. -/
abbrev written5 : List (Ref sig .tc) := [main_cst_15, main_v85, main_v86, main_v87, main_cst_16, main_v88, main_v89, main_v90, main_cst_17, main_v91, main_v92, main_cst_18, main_v93, main_v94, main_cst_19]
theorem writes5 : (hostOps5 : List (HloOp τ sig (Elt Ideal))).Forall fun op => op.writes ⊆ (written5.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references the stretch `hostOps5_1` writes. -/
abbrev written5_1 : List (Ref sig .tc) := [main_call2_v0, main_call2_v1, main_v95]
theorem writes5_1 : (hostOps5_1 : List (HloOp τ sig (Elt Ideal))).Forall fun op => op.writes ⊆ (written5_1.map (Proc.devRef (τ := τ) .tc)).toFinset := by
  simp only [hostOps5_1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references the stretch `hostOps5_2` writes. -/
abbrev written5_2 : List (Ref sig .tc) := [main_v96, main_v97, main_cst_20]
theorem writes5_2 : (hostOps5_2 : List (HloOp τ sig (Elt Ideal))).Forall fun op => op.writes ⊆ (written5_2.map (Proc.devRef (τ := τ) .tc)).toFinset := by
  simp only [hostOps5_2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references the stretch `hostOps5_3` writes. -/
abbrev written5_3 : List (Ref sig .tc) := [main_call3_v0, main_call3_v1, main_call3_v2, main_v98]
theorem writes5_3 : (hostOps5_3 : List (HloOp τ sig (Elt Ideal))).Forall fun op => op.writes ⊆ (written5_3.map (Proc.devRef (τ := τ) .tc)).toFinset := by
  simp only [hostOps5_3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- The references the stretch `hostOps5_4` writes. -/
abbrev written5_4 : List (Ref sig .tc) := [main_v99]
theorem writes5_4 : (hostOps5_4 : List (HloOp τ sig (Elt Ideal))).Forall fun op => op.writes ⊆ (written5_4.map (Proc.devRef (τ := τ) .tc)).toFinset := by
  simp only [hostOps5_4, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-! ## What each segment leaves unchanged -/

/-- A buffer the stretch `hostOps0` does not write holds after it what it held before. -/
theorem keep1 (c : Dev nD) (r : Ref sig .tc) (h : r ∉ written0) :
    W1 m ρ c (Proc.devRef .tc r) = W0 m ρ c (Proc.devRef .tc r) :=
  StableHlo.after_of_writes_sub hostOps0 _ writes0 h

/-- A buffer the stretch `hostOps0_1` does not write holds after it what it held before. -/
theorem keep2 (c : Dev nD) (r : Ref sig .tc) (h : r ∉ written0_1) :
    W2 m ρ c (Proc.devRef .tc r) = W1 m ρ c (Proc.devRef .tc r) :=
  StableHlo.after_of_writes_sub hostOps0_1 _ writes0_1 h

/-- A buffer the stretch `hostOps0_2` does not write holds after it what it held before. -/
theorem keep3 (c : Dev nD) (r : Ref sig .tc) (h : r ∉ written0_2) :
    W3 m ρ c (Proc.devRef .tc r) = W2 m ρ c (Proc.devRef .tc r) :=
  StableHlo.after_of_writes_sub hostOps0_2 _ writes0_2 h

/-- A buffer the stretch `hostOps0_3` does not write holds after it what it held before. -/
theorem keep4 (c : Dev nD) (r : Ref sig .tc) (h : r ∉ written0_3) :
    W4 m ρ c (Proc.devRef .tc r) = W3 m ρ c (Proc.devRef .tc r) :=
  StableHlo.after_of_writes_sub hostOps0_3 _ writes0_3 h

/-- A buffer the stretch `hostOps0_4` does not write holds after it what it held before. -/
theorem keep5 (c : Dev nD) (r : Ref sig .tc) (h : r ∉ written0_4) :
    W5 m ρ c (Proc.devRef .tc r) = W4 m ρ c (Proc.devRef .tc r) :=
  StableHlo.after_of_writes_sub hostOps0_4 _ writes0_4 h

/-- A buffer that is not one of region 0's arrays holds after the region what it held before. -/
theorem keep6 (c : Dev nD) (r : Ref sig .tc) (h : ∀ w, Pipeline.arrRef spec0 w ≠ r) :
    W6 m ρ c (Proc.devRef .tc r) = W5 m ρ c (Proc.devRef .tc r) :=
  W6_of_ne m ρ c r h

/-- A buffer the stretch `hostOps1` does not write holds after it what it held before. -/
theorem keep7 (c : Dev nD) (r : Ref sig .tc) (h : r ∉ written1) :
    W7 m ρ c (Proc.devRef .tc r) = W6 m ρ c (Proc.devRef .tc r) :=
  StableHlo.after_of_writes_sub hostOps1 _ writes1 h

/-- A buffer that is not one of region 1's arrays holds after the region what it held before. -/
theorem keep8 (c : Dev nD) (r : Ref sig .tc) (h : ∀ w, Pipeline.arrRef spec1 w ≠ r) :
    W8 m ρ c (Proc.devRef .tc r) = W7 m ρ c (Proc.devRef .tc r) :=
  W8_of_ne m ρ c r h

/-- A buffer the stretch `hostOps2` does not write holds after it what it held before. -/
theorem keep9 (c : Dev nD) (r : Ref sig .tc) (h : r ∉ written2) :
    W9 m ρ c (Proc.devRef .tc r) = W8 m ρ c (Proc.devRef .tc r) :=
  StableHlo.after_of_writes_sub hostOps2 _ writes2 h

/-- A buffer that is not one of region 2's arrays holds after the region what it held before. -/
theorem keep10 (c : Dev nD) (r : Ref sig .tc) (h : ∀ w, Pipeline.arrRef spec2 w ≠ r) :
    W10 m ρ c (Proc.devRef .tc r) = W9 m ρ c (Proc.devRef .tc r) :=
  W10_of_ne m ρ c r h

/-- A buffer the stretch `hostOps3` does not write holds after it what it held before. -/
theorem keep11 (c : Dev nD) (r : Ref sig .tc) (h : r ∉ written3) :
    W11 m ρ c (Proc.devRef .tc r) = W10 m ρ c (Proc.devRef .tc r) :=
  StableHlo.after_of_writes_sub hostOps3 _ writes3 h

/-- A buffer that is not one of region 3's arrays holds after the region what it held before. -/
theorem keep12 (c : Dev nD) (r : Ref sig .tc) (h : ∀ w, Pipeline.arrRef spec3 w ≠ r) :
    W12 m ρ c (Proc.devRef .tc r) = W11 m ρ c (Proc.devRef .tc r) :=
  W12_of_ne m ρ c r h

/-- A buffer the stretch `hostOps4` does not write holds after it what it held before. -/
theorem keep13 (c : Dev nD) (r : Ref sig .tc) (h : r ∉ written4) :
    W13 m ρ c (Proc.devRef .tc r) = W12 m ρ c (Proc.devRef .tc r) :=
  StableHlo.after_of_writes_sub hostOps4 _ writes4 h

/-- A buffer that is not one of region 4's arrays holds after the region what it held before. -/
theorem keep14 (c : Dev nD) (r : Ref sig .tc) (h : ∀ w, Pipeline.arrRef spec4 w ≠ r) :
    W14 m ρ c (Proc.devRef .tc r) = W13 m ρ c (Proc.devRef .tc r) :=
  W14_of_ne m ρ c r h

/-- A buffer the stretch `hostOps5` does not write holds after it what it held before. -/
theorem keep15 (c : Dev nD) (r : Ref sig .tc) (h : r ∉ written5) :
    W15 m ρ c (Proc.devRef .tc r) = W14 m ρ c (Proc.devRef .tc r) :=
  StableHlo.after_of_writes_sub hostOps5 _ writes5 h

/-- A buffer the stretch `hostOps5_1` does not write holds after it what it held before. -/
theorem keep16 (c : Dev nD) (r : Ref sig .tc) (h : r ∉ written5_1) :
    W16 m ρ c (Proc.devRef .tc r) = W15 m ρ c (Proc.devRef .tc r) :=
  StableHlo.after_of_writes_sub hostOps5_1 _ writes5_1 h

/-- A buffer the stretch `hostOps5_2` does not write holds after it what it held before. -/
theorem keep17 (c : Dev nD) (r : Ref sig .tc) (h : r ∉ written5_2) :
    W17 m ρ c (Proc.devRef .tc r) = W16 m ρ c (Proc.devRef .tc r) :=
  StableHlo.after_of_writes_sub hostOps5_2 _ writes5_2 h

/-- A buffer the stretch `hostOps5_3` does not write holds after it what it held before. -/
theorem keep18 (c : Dev nD) (r : Ref sig .tc) (h : r ∉ written5_3) :
    W18 m ρ c (Proc.devRef .tc r) = W17 m ρ c (Proc.devRef .tc r) :=
  StableHlo.after_of_writes_sub hostOps5_3 _ writes5_3 h

/-- A buffer the stretch `hostOps5_4` does not write holds after it what it held before. -/
theorem keep19 (c : Dev nD) (r : Ref sig .tc) (h : r ∉ written5_4) :
    W19 m ρ c (Proc.devRef .tc r) = W18 m ρ c (Proc.devRef .tc r) :=
  StableHlo.after_of_writes_sub hostOps5_4 _ writes5_4 h

/-- A buffer that is not one of region 5's arrays holds after the region what it held before. -/
theorem keep20 (c : Dev nD) (r : Ref sig .tc) (h : ∀ w, Pipeline.arrRef spec5 w ≠ r) :
    W20 m ρ c (Proc.devRef .tc r) = W19 m ρ c (Proc.devRef .tc r) :=
  W20_of_ne m ρ c r h

/-! ## The degree norms -/

/-- The clipped out-degree, after the first two stretches: the count of each node among the edge sources, at least one. -/
theorem out_degree (c : Dev nD) :
    W2 m ρ c (Proc.devRef .tc main_v4) = Cert.ReferenceIdeal.Read.val_main_v4 (F := Ideal) (m ((c : Thread nD τ).loc main_arg13)) := by
  dsimp only [W2, W1]
  simp only [hostOps0, hostOps0_1]
  after_results_simp
  unfold Cert.ReferenceIdeal.Read.val_main_v4
  show maximumf _ _ = maximumf _ _
  refine congrArg₂ maximumf rfl ?_
  show Host.scatterAdd _ _ _ _ = _
  rw [(show W0 m ρ c (Proc.tc.devRef main_arg13) = m ((c : Thread nD τ).loc main_arg13) from rfl)]
  unfold Cert.ReferenceIdeal.Read.val_main_v3 Cert.ReferenceIdeal.Read.val_main_v1 Cert.ReferenceIdeal.Read.val_main_cst_0 Cert.ReferenceIdeal.Read.val_main_v2 Cert.ReferenceIdeal.Read.val_main_v0 Cert.ReferenceIdeal.Read.val_main_cst
  rfl

/-- The clipped in-degree, after the first four stretches: the count of each node among the edge targets, at least one. -/
theorem in_degree (c : Dev nD) :
    W4 m ρ c (Proc.devRef .tc main_v8) = Cert.ReferenceIdeal.Read.val_main_v8 (F := Ideal) (m ((c : Thread nD τ).loc main_arg14)) := by
  dsimp only [W4, W3, W2, W1]
  simp only [hostOps0, hostOps0_1, hostOps0_2, hostOps0_3]
  after_results_simp
  unfold Cert.ReferenceIdeal.Read.val_main_v8
  show maximumf _ _ = maximumf _ _
  refine congrArg₂ maximumf rfl ?_
  show Host.scatterAdd _ _ _ _ = _
  rw [(show W0 m ρ c (Proc.tc.devRef main_arg14) = m ((c : Thread nD τ).loc main_arg14) from rfl)]
  unfold Cert.ReferenceIdeal.Read.val_main_v7 Cert.ReferenceIdeal.Read.val_main_v5 Cert.ReferenceIdeal.Read.val_main_cst_2 Cert.ReferenceIdeal.Read.val_main_v6 Cert.ReferenceIdeal.Read.val_main_v0 Cert.ReferenceIdeal.Read.val_main_cst
  rfl

/-- The source norm at region 0's entry: one over the square root of the clipped out-degree. -/
theorem source_norm (c : Dev nD) :
    W5 m ρ c (Proc.devRef .tc main_v9) = Cert.ReferenceIdeal.Read.val_main_v9 (F := Ideal) (m ((c : Thread nD τ).loc main_arg13)) := by
  have e0 : W4 m ρ c (Proc.devRef .tc main_v4) = Cert.ReferenceIdeal.Read.val_main_v4 (F := Ideal) (m ((c : Thread nD τ).loc main_arg13)) := ((keep4 m ρ c main_v4 (by decide)).trans (keep3 m ρ c main_v4 (by decide))).trans (out_degree m ρ c)
  show (StableHlo.after hostOps0_4 (W4 m ρ c)) (Proc.devRef .tc main_v9) = _
  generalize W4 m ρ c = V at e0 ⊢
  simp only [hostOps0_4]
  after_results_simp
  rw [e0]
  rfl

/-- The target norm at region 0's entry: one over the square root of the clipped in-degree. -/
theorem target_norm (c : Dev nD) :
    W5 m ρ c (Proc.devRef .tc main_v10) = Cert.ReferenceIdeal.Read.val_main_v10 (F := Ideal) (m ((c : Thread nD τ).loc main_arg14)) := by
  have e0 : W4 m ρ c (Proc.devRef .tc main_v8) = Cert.ReferenceIdeal.Read.val_main_v8 (F := Ideal) (m ((c : Thread nD τ).loc main_arg14)) := in_degree m ρ c
  show (StableHlo.after hostOps0_4 (W4 m ρ c)) (Proc.devRef .tc main_v10) = _
  generalize W4 m ρ c = V at e0 ⊢
  simp only [hostOps0_4]
  after_results_simp
  rw [e0]
  rfl

/-! ## Layer 1 -/

/-- The features aggregated over the edges, scaled by both norms, at region 0's entry. -/
theorem aggregated1 (c : Dev nD) :
    W5 m ρ c (Proc.devRef .tc main_v26) = Cert.ReferenceIdeal.Read.val_main_v26 (F := Ideal) (m ((c : Thread nD τ).loc main_arg0)) (m ((c : Thread nD τ).loc main_arg13)) (m ((c : Thread nD τ).loc main_arg14)) := by
  have e0 : W4 m ρ c (Proc.devRef .tc main_v4) = Cert.ReferenceIdeal.Read.val_main_v4 (F := Ideal) (m ((c : Thread nD τ).loc main_arg13)) := ((keep4 m ρ c main_v4 (by decide)).trans (keep3 m ρ c main_v4 (by decide))).trans (out_degree m ρ c)
  have e1 : W4 m ρ c (Proc.devRef .tc main_v8) = Cert.ReferenceIdeal.Read.val_main_v8 (F := Ideal) (m ((c : Thread nD τ).loc main_arg14)) := in_degree m ρ c
  have e2 : W4 m ρ c (Proc.devRef .tc main_arg0) = m ((c : Thread nD τ).loc main_arg0) := (((((keep4 m ρ c main_arg0 (by decide)).trans (keep3 m ρ c main_arg0 (by decide))).trans (keep2 m ρ c main_arg0 (by decide))).trans (keep1 m ρ c main_arg0 (by decide))).trans rfl)
  have e3 : W4 m ρ c (Proc.devRef .tc main_arg13) = m ((c : Thread nD τ).loc main_arg13) := (((((keep4 m ρ c main_arg13 (by decide)).trans (keep3 m ρ c main_arg13 (by decide))).trans (keep2 m ρ c main_arg13 (by decide))).trans (keep1 m ρ c main_arg13 (by decide))).trans rfl)
  have e4 : W4 m ρ c (Proc.devRef .tc main_arg14) = m ((c : Thread nD τ).loc main_arg14) := (((((keep4 m ρ c main_arg14 (by decide)).trans (keep3 m ρ c main_arg14 (by decide))).trans (keep2 m ρ c main_arg14 (by decide))).trans (keep1 m ρ c main_arg14 (by decide))).trans rfl)
  show (StableHlo.after hostOps0_4 (W4 m ρ c)) (Proc.devRef .tc main_v26) = _
  generalize W4 m ρ c = V at e0 e1 e2 e3 e4 ⊢
  simp only [hostOps0_4]
  after_results_simp
  rw [e0, e1, e2, e3, e4]
  unfold Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_cst_5 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_c_4 Cert.ReferenceIdeal.Read.val_main_v15 Cert.ReferenceIdeal.Read.val_main_v14 Cert.ReferenceIdeal.Read.val_main_c Cert.ReferenceIdeal.Read.val_main_v13 Cert.ReferenceIdeal.Read.val_main_v12 Cert.ReferenceIdeal.Read.val_main_v11 Cert.ReferenceIdeal.Read.val_main_v10 Cert.ReferenceIdeal.Read.val_main_v9
  rfl

/-- The first bias as a one-row matrix, at region 0's entry. -/
theorem bias_row1 (c : Dev nD) :
    W5 m ρ c (Proc.devRef .tc main_v27) = asRow (C := 128) (m ((c : Thread nD τ).loc main_arg2)) := by
  have e0 : W4 m ρ c (Proc.devRef .tc main_arg2) = m ((c : Thread nD τ).loc main_arg2) := (((((keep4 m ρ c main_arg2 (by decide)).trans (keep3 m ρ c main_arg2 (by decide))).trans (keep2 m ρ c main_arg2 (by decide))).trans (keep1 m ρ c main_arg2 (by decide))).trans rfl)
  show (StableHlo.after hostOps0_4 (W4 m ρ c)) (Proc.devRef .tc main_v27) = _
  generalize W4 m ρ c = V at e0 ⊢
  simp only [hostOps0_4]
  after_results_simp
  rw [e0]
  exact reshape_row (C := 128) _ _

/-- Region 0's result array is the reference's first hidden layer. -/
theorem hidden1 (c : Dev nD) :
    W6 m ρ c (Proc.devRef .tc main_v28)
      = Cert.ReferenceIdeal.Read.val_main_v31 (F := Ideal) (m ((c : Thread nD τ).loc main_arg0)) (m ((c : Thread nD τ).loc main_arg1)) (m ((c : Thread nD τ).loc main_arg2)) (m ((c : Thread nD τ).loc main_arg13)) (m ((c : Thread nD τ).loc main_arg14)) := by
  refine (W6_arr m ρ c 3).trans ((Hidden0.result_array (V5 m ρ) c).trans ?_)
  show denseClamped (R := 100000) (C := 128) (W5 m ρ c (Proc.devRef .tc main_v26)) (W5 m ρ c (Proc.devRef .tc main_arg1)) (W5 m ρ c (Proc.devRef .tc main_v27)) = _
  rw [aggregated1, bias_row1, ((((((keep5 m ρ c main_arg1 (by decide)).trans (keep4 m ρ c main_arg1 (by decide))).trans (keep3 m ρ c main_arg1 (by decide))).trans (keep2 m ρ c main_arg1 (by decide))).trans (keep1 m ρ c main_arg1 (by decide))).trans rfl)]
  exact (hidden1_eq _ _ _ _ _).symm

/-! ## Layer 2 -/

/-- Layer 1's output aggregated over the edges and scaled by both norms, at region 1's entry. -/
theorem aggregated2 (c : Dev nD) :
    W7 m ρ c (Proc.devRef .tc main_v44) = Cert.ReferenceIdeal.Read.val_main_v47 (F := Ideal) (m ((c : Thread nD τ).loc main_arg0)) (m ((c : Thread nD τ).loc main_arg1)) (m ((c : Thread nD τ).loc main_arg2)) (m ((c : Thread nD τ).loc main_arg13)) (m ((c : Thread nD τ).loc main_arg14)) := by
  have e0 : W6 m ρ c (Proc.devRef .tc main_v28) = Cert.ReferenceIdeal.Read.val_main_v31 (F := Ideal) (m ((c : Thread nD τ).loc main_arg0)) (m ((c : Thread nD τ).loc main_arg1)) (m ((c : Thread nD τ).loc main_arg2)) (m ((c : Thread nD τ).loc main_arg13)) (m ((c : Thread nD τ).loc main_arg14)) := hidden1 m ρ c
  have e1 : W6 m ρ c (Proc.devRef .tc main_v9) = Cert.ReferenceIdeal.Read.val_main_v9 (F := Ideal) (m ((c : Thread nD τ).loc main_arg13)) := (keep6 m ρ c main_v9 (by decide)).trans (source_norm m ρ c)
  have e2 : W6 m ρ c (Proc.devRef .tc main_v10) = Cert.ReferenceIdeal.Read.val_main_v10 (F := Ideal) (m ((c : Thread nD τ).loc main_arg14)) := (keep6 m ρ c main_v10 (by decide)).trans (target_norm m ρ c)
  have e3 : W6 m ρ c (Proc.devRef .tc main_arg13) = m ((c : Thread nD τ).loc main_arg13) := (((((((keep6 m ρ c main_arg13 (by decide)).trans (keep5 m ρ c main_arg13 (by decide))).trans (keep4 m ρ c main_arg13 (by decide))).trans (keep3 m ρ c main_arg13 (by decide))).trans (keep2 m ρ c main_arg13 (by decide))).trans (keep1 m ρ c main_arg13 (by decide))).trans rfl)
  have e4 : W6 m ρ c (Proc.devRef .tc main_arg14) = m ((c : Thread nD τ).loc main_arg14) := (((((((keep6 m ρ c main_arg14 (by decide)).trans (keep5 m ρ c main_arg14 (by decide))).trans (keep4 m ρ c main_arg14 (by decide))).trans (keep3 m ρ c main_arg14 (by decide))).trans (keep2 m ρ c main_arg14 (by decide))).trans (keep1 m ρ c main_arg14 (by decide))).trans rfl)
  show (StableHlo.after hostOps1 (W6 m ρ c)) (Proc.devRef .tc main_v44) = _
  generalize W6 m ρ c = V at e0 e1 e2 e3 e4 ⊢
  simp only [hostOps1]
  after_results_simp
  rw [e0, e1, e2, e3, e4]
  unfold Cert.ReferenceIdeal.Read.val_main_v47 Cert.ReferenceIdeal.Read.val_main_v46 Cert.ReferenceIdeal.Read.val_main_v45 Cert.ReferenceIdeal.Read.val_main_v44 Cert.ReferenceIdeal.Read.val_main_v43 Cert.ReferenceIdeal.Read.val_main_v42 Cert.ReferenceIdeal.Read.val_main_cst_8 Cert.ReferenceIdeal.Read.val_main_v41 Cert.ReferenceIdeal.Read.val_main_v40 Cert.ReferenceIdeal.Read.val_main_v39 Cert.ReferenceIdeal.Read.val_main_v38 Cert.ReferenceIdeal.Read.val_main_v37 Cert.ReferenceIdeal.Read.val_main_c_7 Cert.ReferenceIdeal.Read.val_main_v36 Cert.ReferenceIdeal.Read.val_main_v35 Cert.ReferenceIdeal.Read.val_main_c_6 Cert.ReferenceIdeal.Read.val_main_v34 Cert.ReferenceIdeal.Read.val_main_v33 Cert.ReferenceIdeal.Read.val_main_v32
  rfl

/-- Layer 2's bias as a one-row matrix, at region 1's entry. -/
theorem bias_row2 (c : Dev nD) :
    W7 m ρ c (Proc.devRef .tc main_v45) = asRow (C := 128) (m ((c : Thread nD τ).loc main_arg4)) := by
  have e0 : W6 m ρ c (Proc.devRef .tc main_arg4) = m ((c : Thread nD τ).loc main_arg4) := (((((((keep6 m ρ c main_arg4 (by decide)).trans (keep5 m ρ c main_arg4 (by decide))).trans (keep4 m ρ c main_arg4 (by decide))).trans (keep3 m ρ c main_arg4 (by decide))).trans (keep2 m ρ c main_arg4 (by decide))).trans (keep1 m ρ c main_arg4 (by decide))).trans rfl)
  show (StableHlo.after hostOps1 (W6 m ρ c)) (Proc.devRef .tc main_v45) = _
  generalize W6 m ρ c = V at e0 ⊢
  simp only [hostOps1]
  after_results_simp
  rw [e0]
  exact reshape_row (C := 128) _ _

/-- Region 1's result array is the reference's hidden layer 2. -/
theorem hidden2 (c : Dev nD) :
    W8 m ρ c (Proc.devRef .tc main_v46) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg14)) := by
  refine (W8_arr m ρ c 3).trans ((Hidden1.result_array (V7 m ρ) c).trans ?_)
  show denseClamped (R := 100000) (C := 128) (W7 m ρ c (Proc.devRef .tc main_v44)) (W7 m ρ c (Proc.devRef .tc main_arg3)) (W7 m ρ c (Proc.devRef .tc main_v45)) = _
  rw [aggregated2, bias_row2, ((((((((keep7 m ρ c main_arg3 (by decide)).trans (keep6 m ρ c main_arg3 (by decide))).trans (keep5 m ρ c main_arg3 (by decide))).trans (keep4 m ρ c main_arg3 (by decide))).trans (keep3 m ρ c main_arg3 (by decide))).trans (keep2 m ρ c main_arg3 (by decide))).trans (keep1 m ρ c main_arg3 (by decide))).trans rfl)]
  exact (hidden2_eq _ _ _ _ _ _ _).symm

/-! ## Layer 3 -/

/-- Layer 2's output aggregated over the edges and scaled by both norms, at region 2's entry. -/
theorem aggregated3 (c : Dev nD) :
    W9 m ρ c (Proc.devRef .tc main_v62) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg14)) := by
  have e0 : W8 m ρ c (Proc.devRef .tc main_v46) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13)) (m ((c : Thread nD τ).loc main_arg14)) := hidden2 m ρ c
  have e1 : W8 m ρ c (Proc.devRef .tc main_v9) = Cert.ReferenceIdeal.Read.val_main_v9 (F := Ideal) (m ((c : Thread nD τ).loc main_arg13)) := (((keep8 m ρ c main_v9 (by decide)).trans (keep7 m ρ c main_v9 (by decide))).trans (keep6 m ρ c main_v9 (by decide))).trans (source_norm m ρ c)
  have e2 : W8 m ρ c (Proc.devRef .tc main_v10) = Cert.ReferenceIdeal.Read.val_main_v10 (F := Ideal) (m ((c : Thread nD τ).loc main_arg14)) := (((keep8 m ρ c main_v10 (by decide)).trans (keep7 m ρ c main_v10 (by decide))).trans (keep6 m ρ c main_v10 (by decide))).trans (target_norm m ρ c)
  have e3 : W8 m ρ c (Proc.devRef .tc main_arg13) = m ((c : Thread nD τ).loc main_arg13) := (((((((((keep8 m ρ c main_arg13 (by decide)).trans (keep7 m ρ c main_arg13 (by decide))).trans (keep6 m ρ c main_arg13 (by decide))).trans (keep5 m ρ c main_arg13 (by decide))).trans (keep4 m ρ c main_arg13 (by decide))).trans (keep3 m ρ c main_arg13 (by decide))).trans (keep2 m ρ c main_arg13 (by decide))).trans (keep1 m ρ c main_arg13 (by decide))).trans rfl)
  have e4 : W8 m ρ c (Proc.devRef .tc main_arg14) = m ((c : Thread nD τ).loc main_arg14) := (((((((((keep8 m ρ c main_arg14 (by decide)).trans (keep7 m ρ c main_arg14 (by decide))).trans (keep6 m ρ c main_arg14 (by decide))).trans (keep5 m ρ c main_arg14 (by decide))).trans (keep4 m ρ c main_arg14 (by decide))).trans (keep3 m ρ c main_arg14 (by decide))).trans (keep2 m ρ c main_arg14 (by decide))).trans (keep1 m ρ c main_arg14 (by decide))).trans rfl)
  show (StableHlo.after hostOps2 (W8 m ρ c)) (Proc.devRef .tc main_v62) = _
  generalize W8 m ρ c = V at e0 e1 e2 e3 e4 ⊢
  simp only [hostOps2]
  after_results_simp
  rw [e0, e1, e2, e3, e4]
  unfold Cert.ReferenceIdeal.Read.val_main_v68 Cert.ReferenceIdeal.Read.val_main_v67 Cert.ReferenceIdeal.Read.val_main_v66 Cert.ReferenceIdeal.Read.val_main_v65 Cert.ReferenceIdeal.Read.val_main_v64 Cert.ReferenceIdeal.Read.val_main_v63 Cert.ReferenceIdeal.Read.val_main_cst_11 Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_c_10 Cert.ReferenceIdeal.Read.val_main_v57 Cert.ReferenceIdeal.Read.val_main_v56 Cert.ReferenceIdeal.Read.val_main_c_9 Cert.ReferenceIdeal.Read.val_main_v55 Cert.ReferenceIdeal.Read.val_main_v54 Cert.ReferenceIdeal.Read.val_main_v53
  rfl

/-- Layer 3's bias as a one-row matrix, at region 2's entry. -/
theorem bias_row3 (c : Dev nD) :
    W9 m ρ c (Proc.devRef .tc main_v63) = asRow (C := 128) (m ((c : Thread nD τ).loc main_arg6)) := by
  have e0 : W8 m ρ c (Proc.devRef .tc main_arg6) = m ((c : Thread nD τ).loc main_arg6) := (((((((((keep8 m ρ c main_arg6 (by decide)).trans (keep7 m ρ c main_arg6 (by decide))).trans (keep6 m ρ c main_arg6 (by decide))).trans (keep5 m ρ c main_arg6 (by decide))).trans (keep4 m ρ c main_arg6 (by decide))).trans (keep3 m ρ c main_arg6 (by decide))).trans (keep2 m ρ c main_arg6 (by decide))).trans (keep1 m ρ c main_arg6 (by decide))).trans rfl)
  show (StableHlo.after hostOps2 (W8 m ρ c)) (Proc.devRef .tc main_v63) = _
  generalize W8 m ρ c = V at e0 ⊢
  simp only [hostOps2]
  after_results_simp
  rw [e0]
  exact reshape_row (C := 128) _ _

/-- Region 2's result array is the reference's hidden layer 3. -/
theorem hidden3 (c : Dev nD) :
    W10 m ρ c (Proc.devRef .tc main_v64) = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) := by
  refine (W10_arr m ρ c 3).trans ((Hidden2.result_array (V9 m ρ) c).trans ?_)
  show denseClamped (R := 100000) (C := 128) (W9 m ρ c (Proc.devRef .tc main_v62)) (W9 m ρ c (Proc.devRef .tc main_arg5)) (W9 m ρ c (Proc.devRef .tc main_v63)) = _
  rw [aggregated3, bias_row3, ((((((((((keep9 m ρ c main_arg5 (by decide)).trans (keep8 m ρ c main_arg5 (by decide))).trans (keep7 m ρ c main_arg5 (by decide))).trans (keep6 m ρ c main_arg5 (by decide))).trans (keep5 m ρ c main_arg5 (by decide))).trans (keep4 m ρ c main_arg5 (by decide))).trans (keep3 m ρ c main_arg5 (by decide))).trans (keep2 m ρ c main_arg5 (by decide))).trans (keep1 m ρ c main_arg5 (by decide))).trans rfl)]
  exact (hidden3_eq _ _ _ _ _ _ _ _ _).symm

/-! ## Layer 4 -/

/-- Layer 3's output aggregated over the edges and scaled by both norms, at region 3's entry. -/
theorem aggregated4 (c : Dev nD) :
    W11 m ρ c (Proc.devRef .tc main_v80) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) := by
  have e0 : W10 m ρ c (Proc.devRef .tc main_v64) = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) := hidden3 m ρ c
  have e1 : W10 m ρ c (Proc.devRef .tc main_v9) = Cert.ReferenceIdeal.Read.val_main_v9 (F := Ideal) (m ((c : Thread nD τ).loc main_arg13)) := (((((keep10 m ρ c main_v9 (by decide)).trans (keep9 m ρ c main_v9 (by decide))).trans (keep8 m ρ c main_v9 (by decide))).trans (keep7 m ρ c main_v9 (by decide))).trans (keep6 m ρ c main_v9 (by decide))).trans (source_norm m ρ c)
  have e2 : W10 m ρ c (Proc.devRef .tc main_v10) = Cert.ReferenceIdeal.Read.val_main_v10 (F := Ideal) (m ((c : Thread nD τ).loc main_arg14)) := (((((keep10 m ρ c main_v10 (by decide)).trans (keep9 m ρ c main_v10 (by decide))).trans (keep8 m ρ c main_v10 (by decide))).trans (keep7 m ρ c main_v10 (by decide))).trans (keep6 m ρ c main_v10 (by decide))).trans (target_norm m ρ c)
  have e3 : W10 m ρ c (Proc.devRef .tc main_arg13) = m ((c : Thread nD τ).loc main_arg13) := (((((((((((keep10 m ρ c main_arg13 (by decide)).trans (keep9 m ρ c main_arg13 (by decide))).trans (keep8 m ρ c main_arg13 (by decide))).trans (keep7 m ρ c main_arg13 (by decide))).trans (keep6 m ρ c main_arg13 (by decide))).trans (keep5 m ρ c main_arg13 (by decide))).trans (keep4 m ρ c main_arg13 (by decide))).trans (keep3 m ρ c main_arg13 (by decide))).trans (keep2 m ρ c main_arg13 (by decide))).trans (keep1 m ρ c main_arg13 (by decide))).trans rfl)
  have e4 : W10 m ρ c (Proc.devRef .tc main_arg14) = m ((c : Thread nD τ).loc main_arg14) := (((((((((((keep10 m ρ c main_arg14 (by decide)).trans (keep9 m ρ c main_arg14 (by decide))).trans (keep8 m ρ c main_arg14 (by decide))).trans (keep7 m ρ c main_arg14 (by decide))).trans (keep6 m ρ c main_arg14 (by decide))).trans (keep5 m ρ c main_arg14 (by decide))).trans (keep4 m ρ c main_arg14 (by decide))).trans (keep3 m ρ c main_arg14 (by decide))).trans (keep2 m ρ c main_arg14 (by decide))).trans (keep1 m ρ c main_arg14 (by decide))).trans rfl)
  show (StableHlo.after hostOps3 (W10 m ρ c)) (Proc.devRef .tc main_v80) = _
  generalize W10 m ρ c = V at e0 e1 e2 e3 e4 ⊢
  simp only [hostOps3]
  after_results_simp
  rw [e0, e1, e2, e3, e4]
  unfold Cert.ReferenceIdeal.Read.val_main_v89 Cert.ReferenceIdeal.Read.val_main_v88 Cert.ReferenceIdeal.Read.val_main_v87 Cert.ReferenceIdeal.Read.val_main_v86 Cert.ReferenceIdeal.Read.val_main_v85 Cert.ReferenceIdeal.Read.val_main_v84 Cert.ReferenceIdeal.Read.val_main_cst_14 Cert.ReferenceIdeal.Read.val_main_v83 Cert.ReferenceIdeal.Read.val_main_v82 Cert.ReferenceIdeal.Read.val_main_v81 Cert.ReferenceIdeal.Read.val_main_v80 Cert.ReferenceIdeal.Read.val_main_v79 Cert.ReferenceIdeal.Read.val_main_c_13 Cert.ReferenceIdeal.Read.val_main_v78 Cert.ReferenceIdeal.Read.val_main_v77 Cert.ReferenceIdeal.Read.val_main_c_12 Cert.ReferenceIdeal.Read.val_main_v76 Cert.ReferenceIdeal.Read.val_main_v75 Cert.ReferenceIdeal.Read.val_main_v74
  rfl

/-- Layer 4's bias as a one-row matrix, at region 3's entry. -/
theorem bias_row4 (c : Dev nD) :
    W11 m ρ c (Proc.devRef .tc main_v81) = asRow (C := 128) (m ((c : Thread nD τ).loc main_arg8)) := by
  have e0 : W10 m ρ c (Proc.devRef .tc main_arg8) = m ((c : Thread nD τ).loc main_arg8) := (((((((((((keep10 m ρ c main_arg8 (by decide)).trans (keep9 m ρ c main_arg8 (by decide))).trans (keep8 m ρ c main_arg8 (by decide))).trans (keep7 m ρ c main_arg8 (by decide))).trans (keep6 m ρ c main_arg8 (by decide))).trans (keep5 m ρ c main_arg8 (by decide))).trans (keep4 m ρ c main_arg8 (by decide))).trans (keep3 m ρ c main_arg8 (by decide))).trans (keep2 m ρ c main_arg8 (by decide))).trans (keep1 m ρ c main_arg8 (by decide))).trans rfl)
  show (StableHlo.after hostOps3 (W10 m ρ c)) (Proc.devRef .tc main_v81) = _
  generalize W10 m ρ c = V at e0 ⊢
  simp only [hostOps3]
  after_results_simp
  rw [e0]
  exact reshape_row (C := 128) _ _

/-- Region 3's result array is the reference's hidden layer 4. -/
theorem hidden4 (c : Dev nD) :
    W12 m ρ c (Proc.devRef .tc main_v82) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) := by
  refine (W12_arr m ρ c 3).trans ((Hidden3.result_array (V11 m ρ) c).trans ?_)
  show denseClamped (R := 100000) (C := 128) (W11 m ρ c (Proc.devRef .tc main_v80)) (W11 m ρ c (Proc.devRef .tc main_arg7)) (W11 m ρ c (Proc.devRef .tc main_v81)) = _
  rw [aggregated4, bias_row4, ((((((((((((keep11 m ρ c main_arg7 (by decide)).trans (keep10 m ρ c main_arg7 (by decide))).trans (keep9 m ρ c main_arg7 (by decide))).trans (keep8 m ρ c main_arg7 (by decide))).trans (keep7 m ρ c main_arg7 (by decide))).trans (keep6 m ρ c main_arg7 (by decide))).trans (keep5 m ρ c main_arg7 (by decide))).trans (keep4 m ρ c main_arg7 (by decide))).trans (keep3 m ρ c main_arg7 (by decide))).trans (keep2 m ρ c main_arg7 (by decide))).trans (keep1 m ρ c main_arg7 (by decide))).trans rfl)]
  exact (hidden4_eq _ _ _ _ _ _ _ _ _ _ _).symm

/-! ## Pooling -/

/-- The gate bias as a one-by-one matrix, at region 4's entry. -/
theorem bias_row_gate (c : Dev nD) :
    W13 m ρ c (Proc.devRef .tc main_v83) = asRow (C := 1) (m ((c : Thread nD τ).loc main_arg10)) := by
  have e0 : W12 m ρ c (Proc.devRef .tc main_arg10) = m ((c : Thread nD τ).loc main_arg10) := (((((((((((((keep12 m ρ c main_arg10 (by decide)).trans (keep11 m ρ c main_arg10 (by decide))).trans (keep10 m ρ c main_arg10 (by decide))).trans (keep9 m ρ c main_arg10 (by decide))).trans (keep8 m ρ c main_arg10 (by decide))).trans (keep7 m ρ c main_arg10 (by decide))).trans (keep6 m ρ c main_arg10 (by decide))).trans (keep5 m ρ c main_arg10 (by decide))).trans (keep4 m ρ c main_arg10 (by decide))).trans (keep3 m ρ c main_arg10 (by decide))).trans (keep2 m ρ c main_arg10 (by decide))).trans (keep1 m ρ c main_arg10 (by decide))).trans rfl)
  show (StableHlo.after hostOps4 (W12 m ρ c)) (Proc.devRef .tc main_v83) = _
  generalize W12 m ρ c = V at e0 ⊢
  simp only [hostOps4]
  after_results_simp
  rw [e0]
  exact reshape_row (C := 1) _ _

/-- The last hidden layer is still in place at region 4's entry. -/
theorem hidden4_kept (c : Dev nD) : W13 m ρ c (Proc.devRef .tc main_v82) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) :=
  (keep13 m ρ c main_v82 (by decide)).trans (hidden4 m ρ c)

/-- Region 4's first result array is the reference's gate column. -/
theorem gate_column (c : Dev nD) : W14 m ρ c (Proc.devRef .tc main_v84_0) = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) := by
  refine (W14_arr m ρ c 3).trans ((Pool.gate_array (V13 m ρ) c).trans ?_)
  show gate (R := 100000) (W13 m ρ c (Proc.devRef .tc main_v82)) (W13 m ρ c (Proc.devRef .tc main_arg9)) (W13 m ρ c (Proc.devRef .tc main_v83)) = _
  rw [hidden4_kept, bias_row_gate, ((((((((((((((keep13 m ρ c main_arg9 (by decide)).trans (keep12 m ρ c main_arg9 (by decide))).trans (keep11 m ρ c main_arg9 (by decide))).trans (keep10 m ρ c main_arg9 (by decide))).trans (keep9 m ρ c main_arg9 (by decide))).trans (keep8 m ρ c main_arg9 (by decide))).trans (keep7 m ρ c main_arg9 (by decide))).trans (keep6 m ρ c main_arg9 (by decide))).trans (keep5 m ρ c main_arg9 (by decide))).trans (keep4 m ρ c main_arg9 (by decide))).trans (keep3 m ρ c main_arg9 (by decide))).trans (keep2 m ρ c main_arg9 (by decide))).trans (keep1 m ρ c main_arg9 (by decide))).trans rfl)]
  exact (gate_eq _ _ _ _ _ _ _ _ _ _ _ _ _).symm

/-- Region 4's second result array is the reference's gated features. -/
theorem gated_features (c : Dev nD) : W14 m ρ c (Proc.devRef .tc main_v84_1) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) := by
  refine (W14_arr m ρ c 4).trans ((Pool.gated_array (V13 m ρ) c).trans ?_)
  show gated (R := 100000) (W13 m ρ c (Proc.devRef .tc main_v82)) (W13 m ρ c (Proc.devRef .tc main_arg9)) (W13 m ρ c (Proc.devRef .tc main_v83)) = _
  rw [hidden4_kept, bias_row_gate, ((((((((((((((keep13 m ρ c main_arg9 (by decide)).trans (keep12 m ρ c main_arg9 (by decide))).trans (keep11 m ρ c main_arg9 (by decide))).trans (keep10 m ρ c main_arg9 (by decide))).trans (keep9 m ρ c main_arg9 (by decide))).trans (keep8 m ρ c main_arg9 (by decide))).trans (keep7 m ρ c main_arg9 (by decide))).trans (keep6 m ρ c main_arg9 (by decide))).trans (keep5 m ρ c main_arg9 (by decide))).trans (keep4 m ρ c main_arg9 (by decide))).trans (keep3 m ρ c main_arg9 (by decide))).trans (keep2 m ρ c main_arg9 (by decide))).trans (keep1 m ρ c main_arg9 (by decide))).trans rfl)]
  exact (gated_eq _ _ _ _ _ _ _ _ _ _ _ _ _).symm

/-! ## The weighted mean per graph -/

/-- The gated features summed per graph. -/
theorem pooled_sum (c : Dev nD) :
    W15 m ρ c (Proc.devRef .tc main_v87) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := by
  have e0 : W14 m ρ c (Proc.devRef .tc main_v84_1) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) := gated_features m ρ c
  have e1 : W14 m ρ c (Proc.devRef .tc main_arg15) = m ((c : Thread nD τ).loc main_arg15) := (((((((((((((((keep14 m ρ c main_arg15 (by decide)).trans (keep13 m ρ c main_arg15 (by decide))).trans (keep12 m ρ c main_arg15 (by decide))).trans (keep11 m ρ c main_arg15 (by decide))).trans (keep10 m ρ c main_arg15 (by decide))).trans (keep9 m ρ c main_arg15 (by decide))).trans (keep8 m ρ c main_arg15 (by decide))).trans (keep7 m ρ c main_arg15 (by decide))).trans (keep6 m ρ c main_arg15 (by decide))).trans (keep5 m ρ c main_arg15 (by decide))).trans (keep4 m ρ c main_arg15 (by decide))).trans (keep3 m ρ c main_arg15 (by decide))).trans (keep2 m ρ c main_arg15 (by decide))).trans (keep1 m ρ c main_arg15 (by decide))).trans rfl)
  show (StableHlo.after hostOps5 (W14 m ρ c)) (Proc.devRef .tc main_v87) = _
  generalize W14 m ρ c = V at e0 e1 ⊢
  simp only [hostOps5]
  after_results_simp
  rw [e0, e1]
  unfold Cert.ReferenceIdeal.Read.val_main_v109 Cert.ReferenceIdeal.Read.val_main_v108 Cert.ReferenceIdeal.Read.val_main_v107 Cert.ReferenceIdeal.Read.val_main_cst_17
  rfl

/-- The gates summed per graph. -/
theorem gate_sum (c : Dev nD) :
    W15 m ρ c (Proc.devRef .tc main_v90) = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := by
  have e0 : W14 m ρ c (Proc.devRef .tc main_v84_0) = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) := gate_column m ρ c
  have e1 : W14 m ρ c (Proc.devRef .tc main_arg15) = m ((c : Thread nD τ).loc main_arg15) := (((((((((((((((keep14 m ρ c main_arg15 (by decide)).trans (keep13 m ρ c main_arg15 (by decide))).trans (keep12 m ρ c main_arg15 (by decide))).trans (keep11 m ρ c main_arg15 (by decide))).trans (keep10 m ρ c main_arg15 (by decide))).trans (keep9 m ρ c main_arg15 (by decide))).trans (keep8 m ρ c main_arg15 (by decide))).trans (keep7 m ρ c main_arg15 (by decide))).trans (keep6 m ρ c main_arg15 (by decide))).trans (keep5 m ρ c main_arg15 (by decide))).trans (keep4 m ρ c main_arg15 (by decide))).trans (keep3 m ρ c main_arg15 (by decide))).trans (keep2 m ρ c main_arg15 (by decide))).trans (keep1 m ρ c main_arg15 (by decide))).trans rfl)
  show (StableHlo.after hostOps5 (W14 m ρ c)) (Proc.devRef .tc main_v90) = _
  generalize W14 m ρ c = V at e0 e1 ⊢
  simp only [hostOps5]
  after_results_simp
  rw [e0, e1]
  unfold Cert.ReferenceIdeal.Read.val_main_v112 Cert.ReferenceIdeal.Read.val_main_v111 Cert.ReferenceIdeal.Read.val_main_v110 Cert.ReferenceIdeal.Read.val_main_cst_18
  rfl

/-- Which graphs have a positive gate sum (the outer guard). -/
theorem nonempty_a (c : Dev nD) :
    W15 m ρ c (Proc.devRef .tc main_v92) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := by
  have e0 : W14 m ρ c (Proc.devRef .tc main_v84_0) = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) := gate_column m ρ c
  have e1 : W14 m ρ c (Proc.devRef .tc main_arg15) = m ((c : Thread nD τ).loc main_arg15) := (((((((((((((((keep14 m ρ c main_arg15 (by decide)).trans (keep13 m ρ c main_arg15 (by decide))).trans (keep12 m ρ c main_arg15 (by decide))).trans (keep11 m ρ c main_arg15 (by decide))).trans (keep10 m ρ c main_arg15 (by decide))).trans (keep9 m ρ c main_arg15 (by decide))).trans (keep8 m ρ c main_arg15 (by decide))).trans (keep7 m ρ c main_arg15 (by decide))).trans (keep6 m ρ c main_arg15 (by decide))).trans (keep5 m ρ c main_arg15 (by decide))).trans (keep4 m ρ c main_arg15 (by decide))).trans (keep3 m ρ c main_arg15 (by decide))).trans (keep2 m ρ c main_arg15 (by decide))).trans (keep1 m ρ c main_arg15 (by decide))).trans rfl)
  show (StableHlo.after hostOps5 (W14 m ρ c)) (Proc.devRef .tc main_v92) = _
  generalize W14 m ρ c = V at e0 e1 ⊢
  simp only [hostOps5]
  after_results_simp
  rw [e0, e1]
  unfold Cert.ReferenceIdeal.Read.val_main_v114 Cert.ReferenceIdeal.Read.val_main_v113 Cert.ReferenceIdeal.Read.val_main_cst_19 Cert.ReferenceIdeal.Read.val_main_v112 Cert.ReferenceIdeal.Read.val_main_v111 Cert.ReferenceIdeal.Read.val_main_v110 Cert.ReferenceIdeal.Read.val_main_cst_18
  rfl

/-- Which graphs have a positive gate sum (the inner guard). -/
theorem nonempty_b (c : Dev nD) :
    W15 m ρ c (Proc.devRef .tc main_v94) = Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := by
  have e0 : W14 m ρ c (Proc.devRef .tc main_v84_0) = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) := gate_column m ρ c
  have e1 : W14 m ρ c (Proc.devRef .tc main_arg15) = m ((c : Thread nD τ).loc main_arg15) := (((((((((((((((keep14 m ρ c main_arg15 (by decide)).trans (keep13 m ρ c main_arg15 (by decide))).trans (keep12 m ρ c main_arg15 (by decide))).trans (keep11 m ρ c main_arg15 (by decide))).trans (keep10 m ρ c main_arg15 (by decide))).trans (keep9 m ρ c main_arg15 (by decide))).trans (keep8 m ρ c main_arg15 (by decide))).trans (keep7 m ρ c main_arg15 (by decide))).trans (keep6 m ρ c main_arg15 (by decide))).trans (keep5 m ρ c main_arg15 (by decide))).trans (keep4 m ρ c main_arg15 (by decide))).trans (keep3 m ρ c main_arg15 (by decide))).trans (keep2 m ρ c main_arg15 (by decide))).trans (keep1 m ρ c main_arg15 (by decide))).trans rfl)
  show (StableHlo.after hostOps5 (W14 m ρ c)) (Proc.devRef .tc main_v94) = _
  generalize W14 m ρ c = V at e0 e1 ⊢
  simp only [hostOps5]
  after_results_simp
  rw [e0, e1]
  unfold Cert.ReferenceIdeal.Read.val_main_v116 Cert.ReferenceIdeal.Read.val_main_v115 Cert.ReferenceIdeal.Read.val_main_cst_20 Cert.ReferenceIdeal.Read.val_main_v112 Cert.ReferenceIdeal.Read.val_main_v111 Cert.ReferenceIdeal.Read.val_main_v110 Cert.ReferenceIdeal.Read.val_main_cst_18
  rfl

/-- The scalar one the inner guard substitutes. -/
theorem one_scalar (c : Dev nD) :
    W15 m ρ c (Proc.devRef .tc main_cst_19) = constant (F := Ideal) S_ .f32 0x3F800000#32 := by
  show (StableHlo.after hostOps5 (W14 m ρ c)) (Proc.devRef .tc main_cst_19) = _
  generalize W14 m ρ c = V
  simp only [hostOps5]
  after_results_simp

set_option maxRecDepth 200000 in
/-- The gate sums with one in place of a non-positive sum. -/
theorem safe_sum (c : Dev nD) :
    W16 m ρ c (Proc.devRef .tc main_v95) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := by
  have e0 : W15 m ρ c (Proc.devRef .tc main_v94) = Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := nonempty_b m ρ c
  have e1 : W15 m ρ c (Proc.devRef .tc main_v90) = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := gate_sum m ρ c
  have e2 : W15 m ρ c (Proc.devRef .tc main_cst_19) = constant (F := Ideal) S_ .f32 0x3F800000#32 := one_scalar m ρ c
  show (StableHlo.after hostOps5_1 (W15 m ρ c)) (Proc.devRef .tc main_v95) = _
  generalize W15 m ρ c = V at e0 e1 e2 ⊢
  simp only [hostOps5_1]
  after_results_simp
  rw [e0, e1, e2]
  unfold Cert.ReferenceIdeal.Read.val_main_v117 Cert.ReferenceIdeal.Read.val_main_call6_v1 Cert.ReferenceIdeal.Read.val_main_call6_v0 Cert.ReferenceIdeal.Read.val_main_cst_21
  show select _ _ _ = select _ _ _
  refine congr (congr (congrArg select ?_) ?_) ?_
  · rfl
  · rfl
  · rfl

/-- The summed gated features divided by the safe gate sums. -/
theorem mean (c : Dev nD) :
    W17 m ρ c (Proc.devRef .tc main_v97) = Cert.ReferenceIdeal.Read.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := by
  have e0 : W16 m ρ c (Proc.devRef .tc main_v95) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := safe_sum m ρ c
  have e1 : W16 m ρ c (Proc.devRef .tc main_v87) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := (keep16 m ρ c main_v87 (by decide)).trans (pooled_sum m ρ c)
  show (StableHlo.after hostOps5_2 (W16 m ρ c)) (Proc.devRef .tc main_v97) = _
  generalize W16 m ρ c = V at e0 e1 ⊢
  simp only [hostOps5_2]
  after_results_simp
  rw [e0, e1]
  unfold Cert.ReferenceIdeal.Read.val_main_v119 Cert.ReferenceIdeal.Read.val_main_v118
  rfl

/-- The scalar zero the outer guard substitutes. -/
theorem zero_scalar (c : Dev nD) :
    W17 m ρ c (Proc.devRef .tc main_cst_20) = constant (F := Ideal) S_ .f32 0x00000000#32 := by
  show (StableHlo.after hostOps5_2 (W16 m ρ c)) (Proc.devRef .tc main_cst_20) = _
  generalize W16 m ρ c = V
  simp only [hostOps5_2]
  after_results_simp

set_option maxRecDepth 200000 in
/-- The per-graph weighted mean, zero for a graph with no positive gate sum. -/
theorem pooled (c : Dev nD) :
    W18 m ρ c (Proc.devRef .tc main_v98) = Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := by
  have e0 : W17 m ρ c (Proc.devRef .tc main_cst_20) = constant (F := Ideal) S_ .f32 0x00000000#32 := zero_scalar m ρ c
  have e1 : W17 m ρ c (Proc.devRef .tc main_v92) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := ((keep17 m ρ c main_v92 (by decide)).trans (keep16 m ρ c main_v92 (by decide))).trans (nonempty_a m ρ c)
  have e2 : W17 m ρ c (Proc.devRef .tc main_v97) = Cert.ReferenceIdeal.Read.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15)) := mean m ρ c
  show (StableHlo.after hostOps5_3 (W17 m ρ c)) (Proc.devRef .tc main_v98) = _
  generalize W17 m ρ c = V at e0 e1 e2 ⊢
  simp only [hostOps5_3]
  after_results_simp
  rw [e0, e1, e2]
  unfold Cert.ReferenceIdeal.Read.val_main_v120 Cert.ReferenceIdeal.Read.val_main_call7_v2 Cert.ReferenceIdeal.Read.val_main_call7_v1 Cert.ReferenceIdeal.Read.val_main_call7_v0 Cert.ReferenceIdeal.Read.val_main_cst_22
  show select _ _ _ = select _ _ _
  refine congr (congr (congrArg select ?_) ?_) ?_
  · rfl
  · rfl
  · rfl

/-! ## The classifier -/

/-- The class bias as a one-row matrix, at region 5's entry. -/
theorem bias_row_classes (c : Dev nD) :
    W19 m ρ c (Proc.devRef .tc main_v99) = asRow (C := 16) (m ((c : Thread nD τ).loc main_arg12)) := by
  have e0 : W18 m ρ c (Proc.devRef .tc main_arg12) = m ((c : Thread nD τ).loc main_arg12) := (((((((((((((((((((keep18 m ρ c main_arg12 (by decide)).trans (keep17 m ρ c main_arg12 (by decide))).trans (keep16 m ρ c main_arg12 (by decide))).trans (keep15 m ρ c main_arg12 (by decide))).trans (keep14 m ρ c main_arg12 (by decide))).trans (keep13 m ρ c main_arg12 (by decide))).trans (keep12 m ρ c main_arg12 (by decide))).trans (keep11 m ρ c main_arg12 (by decide))).trans (keep10 m ρ c main_arg12 (by decide))).trans (keep9 m ρ c main_arg12 (by decide))).trans (keep8 m ρ c main_arg12 (by decide))).trans (keep7 m ρ c main_arg12 (by decide))).trans (keep6 m ρ c main_arg12 (by decide))).trans (keep5 m ρ c main_arg12 (by decide))).trans (keep4 m ρ c main_arg12 (by decide))).trans (keep3 m ρ c main_arg12 (by decide))).trans (keep2 m ρ c main_arg12 (by decide))).trans (keep1 m ρ c main_arg12 (by decide))).trans rfl)
  show (StableHlo.after hostOps5_4 (W18 m ρ c)) (Proc.devRef .tc main_v99) = _
  generalize W18 m ρ c = V at e0 ⊢
  simp only [hostOps5_4]
  after_results_simp
  rw [e0]
  exact reshape_row (C := 16) _ _

/-- THE RESULT: the kernel's result buffer at the last boundary is the reference's result stage at the launch arguments. -/
theorem result (c : Dev nD) : W20 m ρ c (Proc.devRef .tc main_v100) = Cert.ReferenceIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W20_arr m ρ c 3).trans ((Classes.result_array (V19 m ρ) c).trans ?_)
  show dense (R := 512) (C := 16) (W19 m ρ c (Proc.devRef .tc main_v98)) (W19 m ρ c (Proc.devRef .tc main_arg11)) (W19 m ρ c (Proc.devRef .tc main_v99)) = _
  rw [(keep19 m ρ c main_v98 (by decide)).trans (pooled m ρ c), bias_row_classes, ((((((((((((((((((((keep19 m ρ c main_arg11 (by decide)).trans (keep18 m ρ c main_arg11 (by decide))).trans (keep17 m ρ c main_arg11 (by decide))).trans (keep16 m ρ c main_arg11 (by decide))).trans (keep15 m ρ c main_arg11 (by decide))).trans (keep14 m ρ c main_arg11 (by decide))).trans (keep13 m ρ c main_arg11 (by decide))).trans (keep12 m ρ c main_arg11 (by decide))).trans (keep11 m ρ c main_arg11 (by decide))).trans (keep10 m ρ c main_arg11 (by decide))).trans (keep9 m ρ c main_arg11 (by decide))).trans (keep8 m ρ c main_arg11 (by decide))).trans (keep7 m ρ c main_arg11 (by decide))).trans (keep6 m ρ c main_arg11 (by decide))).trans (keep5 m ρ c main_arg11 (by decide))).trans (keep4 m ρ c main_arg11 (by decide))).trans (keep3 m ρ c main_arg11 (by decide))).trans (keep2 m ρ c main_arg11 (by decide))).trans (keep1 m ρ c main_arg11 (by decide))).trans rfl)]
  exact (scores_eq _ _ _ _ _ _ _ _ _ _ _ _ _ _ _ _).symm

end Cert.KernelIdeal.Walk

end
-- ==== Proof.lean ====
/-
  The graph network as six tiled dense regions between host gathers and scatters, against the plain reference.

  Both programs normalise the edge list by the clipped in- and out-degrees, run four graph-convolution layers —
  aggregate the scaled features over the edges, multiply by the layer's weights, add the bias, clamp at zero —, gate
  every node by the logistic function of a one-column dense layer, take the gate-weighted mean per graph (zero for a
  graph whose gates sum to nothing positive) and score the sixteen classes by a last dense layer. The kernel computes
  the dense halves in tiled regions over blocks of 2000 node rows (the classifier in one block); everything else is the
  same host operations in both programs.

  On the extended reals a change of float format is the identity and a matrix product into a zero accumulator is the
  plain sum over the 128 shared coordinates, so each region's result array is, entry by entry, the whole-array dense
  layer the reference computes (RowsTimesColumns, HiddenLayer0–3, PoolingBlocks, ClassifierBlocks, ReferenceLayers); the
  kernel's logistic gate is the reference's 1 / (1 + e^(−z)) by the definition of the logistic function there. No law
  that needs finite values is used: sums and products are only re-read, never redistributed, so the precondition is
  not opened. Walking the kernel's segments from the launch memory (Boundaries) every buffer a later segment reads holds
  the reference's stage at the launch arguments, and the result buffer ends at the reference's result stage.

  The ideal pass rewrote nothing, so the idealized kernel is the kernel's own text read on the extended reals and the
  preservation claim has no conjunct.
-/
import proofs.«130892_j12841952215814_1_alg».proof.Defs
import proofs.«130892_j12841952215814_1_alg».proof.Proof.Gen.Kernel
import proofs.«130892_j12841952215814_1_alg».proof.Proof.Gen.Kernel.Skeleton
import proofs.«130892_j12841952215814_1_alg».proof.Proof.Gen.Kernel.Launch
import proofs.«130892_j12841952215814_1_alg».proof.Proof.Gen.Kernel.Points
import proofs.«130892_j12841952215814_1_alg».proof.Proof.Gen.Kernel.Frame
import proofs.«130892_j12841952215814_1_alg».proof.Proof.Gen.KernelIdeal
import proofs.«130892_j12841952215814_1_alg».proof.Proof.Gen.KernelIdeal.Skeleton
import proofs.«130892_j12841952215814_1_alg».proof.Proof.Gen.KernelIdeal.Launch
import proofs.«130892_j12841952215814_1_alg».proof.Proof.Gen.KernelIdeal.Points
import proofs.«130892_j12841952215814_1_alg».proof.Proof.Gen.KernelIdeal.Frame
import proofs.«130892_j12841952215814_1_alg».proof.Proof.Gen.ReferenceIdeal
import proofs.«130892_j12841952215814_1_alg».proof.Proof.Gen.Pre_finite_inputs
import proofs.«130892_j12841952215814_1_alg».proof.Proof.Gen.ReferenceIdeal.Run
import proofs.«130892_j12841952215814_1_alg».proof.Proof.Gen.ReferenceIdeal.Read
import proofs.«130892_j12841952215814_1_alg».proof.Proof.KernelRun
import proofs.«130892_j12841952215814_1_alg».proof.Proof.Boundaries
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The idealized reference runs and leaves its arguments as launched: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the reference's result stage of the
    kernel's launch arguments in their result buffers: the kernel by the walk through its segments, the reference by
    its run, its arguments rewritten to the kernel's. -/
theorem algebraic : Cert.algebraic_KernelIdeal_ReferenceIdeal := by
  intro m ρ m' ρ' _ hagree
  refine ⟨fun c => Cert.ReferenceIdeal.Read.val_main_v124 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c => ⟨(h c).1.trans (Cert.KernelIdeal.Walk.result m ρ c), (h c).2⟩)
      (Cert.KernelIdeal.Whole.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v124_eq, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
